-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384x1 : Shape := ⟨2, ![16384, 1]⟩
abbrev S4096x16384 : Shape := ⟨2, ![4096, 16384]⟩
abbrev S4096x1 : Shape := ⟨2, ![4096, 1]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384x1 : S_.BroadcastsInDim S16384x1 (![] : Fin 0 → Fin S16384x1.rank)
  reducesTo_S16384x1_S_d0_1 : S16384x1.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_arg4 : FVec F S16384x1 .f32) (main_arg5 : FVec F S4096x16384 .f32) (main_arg6 : FVec F S4096x1 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S16384x1 .f32 := Host.absf main_arg4
  let main_cst_6 : FVec F S_ .f32 := constant S_ .f32 0x7F800000#32
  let main_v20 : FVec F S16384x1 .f32 := broadcastInDim S16384x1 ![] bcast_S_S16384x1 main_cst_6
  let main_v21 : IVec S16384x1 1 := cmpf .olt main_v19 main_v20
  let main_c_7 : IVec S_ 1 := constantI S_ 1 1#1
  let main_v22 : IVec S_ 1 := (fun x v => Host.reduce IntOp.andi x v reducesTo_S16384x1_S_d0_1 h_S_) main_v21 main_c_7
  let main_v23 : IVec S_ 1 := andi main_v18 main_v22
  let main_v24 : FVec F S4096x16384 .f32 := Host.absf main_arg5
  let main_cst_8 : FVec F S_ .f32 := constant S_ .f32 0x7F800000#32
  let main_v25 : FVec F S4096x16384 .f32 := broadcastInDim S4096x16384 ![] bcast_S_S4096x16384 main_cst_8
  let main_v26 : IVec S4096x16384 1 := cmpf .olt main_v24 main_v25
  let main_c_9 : IVec S_ 1 := constantI S_ 1 1#1
  let main_v27 : IVec S_ 1 := (fun x v => Host.reduce IntOp.andi x v reducesTo_S4096x16384_S_d0_1 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  main_v33

def fn {F : FTy → Type} [FloatOps F] (main_arg0 : FVec F S2x2048x4096 .f32) (main_arg1 : FVec F S16384x4096 .f32) (main_arg2 : FVec F S16384x1 .f32) (main_arg3 : FVec F S16384x4096 .f32) (main_arg4 : FVec F S16384x1 .f32) (main_arg5 : FVec F S4096x16384 .f32) (main_arg6 : FVec F S4096x1 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_arg5 main_arg6 main_v13 main_v16
-- ==== Kernel.lean ====
abbrev S2x2048x4096 : Shape := ⟨3, ![2, 2048, 4096]⟩
abbrev S16384x4096 : Shape := ⟨2, ![16384, 4096]⟩
abbrev S16384x1 : Shape := ⟨2, ![16384, 1]⟩
abbrev S4096x16384 : Shape := ⟨2, ![4096, 16384]⟩
abbrev S4096x1 : Shape := ⟨2, ![4096, 1]⟩
abbrev S4096x4096 : Shape := ⟨2, ![4096, 4096]⟩
abbrev S_ : Shape := ⟨0, ![]⟩
abbrev S512x1024 : Shape := ⟨2, ![512, 1024]⟩
abbrev S2048x1024 : Shape := ⟨2, ![2048, 1024]⟩
abbrev S512x2048 : Shape := ⟨2, ![512, 2048]⟩
abbrev S2048x2048 : Shape := ⟨2, ![2048, 2048]⟩

abbrev nBuf : Space → Nat
  | .hbm => 57
  | .vmem => 17
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384x1, .f32⟩
  | .hbm, ⟨3, _⟩ => ⟨S16384x4096, .f32⟩
  | .hbm, ⟨4, _⟩ => ⟨S16384x1, .f32⟩
  | .hbm, ⟨5, _⟩ => ⟨S4096x16384, .f32⟩
  | .hbm, ⟨6, _⟩ => ⟨S4096x1, .f32⟩
  | .hbm, ⟨7, _⟩ => ⟨S4096x4096, .f32⟩
  | .hbm, ⟨8, _⟩ => ⟨S4096x4096, .bf16⟩
  | .hbm, ⟨9, _⟩ => ⟨S16384x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .i1⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .bf16⟩
  | .hbm, ⟨24, _⟩ => ⟨S16384x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .i1⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | .hbm, ⟨39, _⟩ => ⟨S4096x16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x16384, .f32⟩
  | .hbm, ⟨47, _⟩ => ⟨S4096x16384, .f32⟩
  | .hbm, ⟨48, _⟩ => ⟨S4096x16384, .i1⟩
  | .hbm, ⟨49, _⟩ => ⟨S4096x16384, .f32⟩
  | .hbm, ⟨50, _⟩ => ⟨S4096x16384, .f32⟩
  | .hbm, ⟨51, _⟩ => ⟨S4096x16384, .f32⟩
  | .hbm, ⟨52, _⟩ => ⟨S4096x16384, .f32⟩
  | .hbm, ⟨53, _⟩ => ⟨S4096x16384, .bf16⟩
  | .hbm, ⟨54, _⟩ => ⟨S4096x16384, .bf16⟩
  | .hbm, ⟨55, _⟩ => ⟨S4096x4096, .f32⟩
  | .hbm, ⟨56, _⟩ => ⟨S2x2048x4096, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S2048x2048, .bf16⟩
  | .local _ .vmem, ⟨13, _⟩ => ⟨S2048x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2x2048x4096_S4096x4096 : S2x2048x4096.ShapeCasts S4096x4096
  bitsLt_bf16_f32 : FTy.bits .bf16 < FTy.bits .f32
  reducesTo_S16384x4096_S_d0_1 : S16384x4096.ReducesTo [0, 1] S_
  h_S_ : 0 < S_.numel
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  reducesTo_S4096x16384_S_d0_1 : S4096x16384.ReducesTo [0, 1] S_
  bcast_S_S4096x16384 : S_.BroadcastsInDim S4096x16384 (![] : Fin 0 → Fin S4096x16384.rank)
  bcast_S4096x1_S4096x16384_0_1 : S4096x1.BroadcastsInDim S4096x16384 (![0, 1] : Fin 2 → Fin S4096x16384.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S512x2048_S512x2048_0_0 : (Rect.unit (s := S512x2048) ![0, 0] S512x2048.size inb_S512x2048_S512x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S4096x4096_S2x2048x4096 : S4096x4096.ShapeCasts S2x2048x4096
  dot_S512x1024_S2048x1024_S512x2048_1_1_0_0_n_n_wf : DotDims.WF S512x1024 S2048x1024 S512x2048 [1] [1] [0] [0] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .bf16 = 32 ∨ (Rect.block (s := S4096x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x4096.size a
  hwx0_2 : ∀ i : grid0.Coords, EltTy.bits .bf16 = 32 ∨ (Rect.block (s := S16384x4096) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x16384.size a
  hwx0_3 : ∀ i : grid0.Coords, EltTy.bits .bf16 = 32 ∨ (Rect.block (s := S4096x16384) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x16384.size a
  hwx1_0 : ∀ i : grid1.Coords, EltTy.bits .bf16 = 32 ∨ (Rect.block (s := S4096x16384) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S4096x16384.size a
  hwx1_1 : ∀ i : grid1.Coords, EltTy.bits .bf16 = 32 ∨ (Rect.block (s := S4096x16384) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x4096.size a
  hwx1_2 : ∀ i : grid1.Coords, EltTy.bits .f32 = 32 ∨ (Rect.block (s := S4096x4096) S512x2048.size (cc1_transform_2 i) (hinb1_2 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v38) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384x1 : Shape := ⟨2, ![16384, 1]⟩
abbrev S4096x16384 : Shape := ⟨2, ![4096, 16384]⟩
abbrev S4096x1 : Shape := ⟨2, ![4096, 1]⟩
abbrev S_ : Shape := ⟨0, ![]⟩
abbrev S2x2048x16384 : Shape := ⟨3, ![2, 2048, 16384]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S16384x1, .f32⟩
  | .hbm, ⟨3, _⟩ => ⟨S16384x4096, .f32⟩
  | .hbm, ⟨4, _⟩ => ⟨S16384x1, .f32⟩
  | .hbm, ⟨5, _⟩ => ⟨S4096x16384, .f32⟩
  | .hbm, ⟨6, _⟩ => ⟨S4096x1, .f32⟩
  | .hbm, ⟨7, _⟩ => ⟨S16384x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .i1⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S2x2048x16384, .f32⟩
  | .hbm, ⟨22, _⟩ => ⟨S16384x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .i1⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S2x2048x16384, .f32⟩
  | .hbm, ⟨37, _⟩ => ⟨S2x2048x16384, .f32⟩
  | .hbm, ⟨38, _⟩ => ⟨S2x2048x16384, .f32⟩
  | .hbm, ⟨39, _⟩ => ⟨S_, .f32⟩
  | .hbm, ⟨40, _⟩ => ⟨S2x2048x16384, .f32⟩
  | .hbm, ⟨41, _⟩ => ⟨S2x2048x16384, .f32⟩
  | .hbm, ⟨42, _⟩ => ⟨S_, .f32⟩
  | .hbm, ⟨43, _⟩ => ⟨S2x2048x16384, .f32⟩
  | .hbm, ⟨44, _⟩ => ⟨S2x2048x16384, .f32⟩
  | .hbm, ⟨45, _⟩ => ⟨S2x2048x16384, .f32⟩
  | .hbm, ⟨46, _⟩ => ⟨S2x2048x16384, .f32⟩
  | .hbm, ⟨47, _⟩ => ⟨S4096x16384, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4096x16384, .f32⟩
  | .hbm, ⟨55, _⟩ => ⟨S4096x16384, .f32⟩
  | .hbm, ⟨56, _⟩ => ⟨S4096x16384, .i1⟩
  | .hbm, ⟨57, _⟩ => ⟨S4096x16384, .f32⟩
  | .hbm, ⟨58, _⟩ => ⟨S4096x16384, .f32⟩
  | .hbm, ⟨59, _⟩ => ⟨S4096x16384, .f32⟩
  | .hbm, ⟨60, _⟩ => ⟨S4096x16384, .f32⟩
  | .hbm, ⟨61, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S_S2x2048x16384 : S_.BroadcastsInDim S2x2048x16384 (![] : Fin 0 → Fin S2x2048x16384.rank)
  reducesTo_S4096x16384_S_d0_1 : S4096x16384.ReducesTo [0, 1] S_
  bcast_S_S4096x16384 : S_.BroadcastsInDim S4096x16384 (![] : Fin 0 → Fin S4096x16384.rank)
  bcast_S4096x1_S4096x16384_0_1 : S4096x1.BroadcastsInDim S4096x16384 (![0, 1] : Fin 2 → Fin S4096x16384.rank)
  dot_S2x2048x4096_S16384x4096_S2x2048x16384_2_1_01_0_n_n_wf : DotDims.WF S2x2048x4096 S16384x4096 S2x2048x16384 [2] [1] [0, 1] [0] [] []
  dot_S2x2048x16384_S4096x16384_S2x2048x4096_2_1_01_0_n_n_wf : DotDims.WF S2x2048x16384 S4096x16384 S2x2048x4096 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf
def dot_S2x2048x16384_S4096x16384_S2x2048x4096_2_1_01_0_n_n : DotDims S2x2048x16384 S4096x16384 S2x2048x4096 where
  lhsContracting := [2]
  rhsContracting := [1]
  lhsNonContracting := [0, 1]
  rhsNonContracting := [0]
  lhsBatch := []
  rhsBatch := []
  wf := dot_S2x2048x16384_S4096x16384_S2x2048x4096_2_1_01_0_n_n_wf

class Facts : Prop extends Facts₀ where

variable [Facts]
-- ==== Proof.Bits.GluRegion.lean ====
/-
  The first kernel region (the gated hidden layer), at any float instance, from the buffer contents `V` the region is
  entered with.

  The grid is 8 × 8 × 4 points `(i, j, k)`, `k` innermost. At a point the kernel multiplies a 512 × 1024 block of the
  input rows (tile `i`, slice `k`) by the transposes of two 2048 × 1024 blocks of weights (tile `j`, slice `k`: the gate's
  and the value's) and adds each product to an accumulator of its own, kept between points: at `k = 0` both are first set
  to zero; at `k = 3` the block `(g · σ(g)) · u` of the two accumulators' values `g`, `u` is stored into the output block
  `(i, j)`, which is written back there and nowhere else.
-/
import proofs.«179451_j81046032875547_1_alg».proof.Proof.Gen.Kernel.Launch
import proofs.«179451_j81046032875547_1_alg».proof.Proof.Gen.Kernel.Skeleton
import proofs.«179451_j81046032875547_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's block is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's block is in its staging buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- `k = 0`: the accumulators are reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- `k = 3`: the activation block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where `k ≠ 3` nothing is stored into the output block and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging buffers and the accumulators -/

abbrev ms0_0 (t : Fin cfg0.N) : Memref sig .tc .vmem S512x1024 .bf16 := win0_0.stage (cfg0.slots t 0)
abbrev ms0_1 (t : Fin cfg0.N) : Memref sig .tc .vmem S2048x1024 .bf16 := win0_1.stage (cfg0.slots t 1)
abbrev ms0_2 (t : Fin cfg0.N) : Memref sig .tc .vmem S2048x1024 .bf16 := win0_2.stage (cfg0.slots t 2)
abbrev ms0_3 (t : Fin cfg0.N) : Memref sig .tc .vmem S512x2048 .bf16 := win0_3.stage (cfg0.slots t 3)
/-- The gate's accumulator and the value's. -/
abbrev gM0 : Memref sig .tc .vmem S512x2048 .f32 := Memref.whole cc0_scratch0
abbrev uM0 : Memref sig .tc .vmem S512x2048 .f32 := Memref.whole cc0_scratch1

theorem zeroOff0 : (![0, 0] : Fin 2 → Nat) = fun _ => 0 := by funext a; fin_cases a <;> rfl

/-! ## The body, case by case -/

set_option maxHeartbeats 2000000 in
/-- A point with `k = 0`: each accumulator, whatever it held, becomes `0 +` its product; the output block is left as it was. -/
theorem glu_first (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x1024 .bf16) (x1 x2 : Vec F S2048x1024 .bf16) (xi : Vec F S512x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 x1 k0_pay1) ∗ owns (c : Thread nD τ) arg8 fullShare (k0_pay5 x0 x2 k0_pay2)) -∗ K ⟨⟩))
      ⊢ wp frame (wpE (defs₀ (F := F)) Variants.none c none) E (cc0__glu_kernel i arg3 harg3 arg4 harg4 arg5 harg5 arg6 harg6 arg7 harg7 arg8 harg8) K := by
  simp only [cc0__glu_kernel_eq_skeleton]; unfold cc0__glu_kernel_skel
  unfold owns
  iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  iexists _; isplitr
  swap; · iexact HU
  ipureintro
  sl_unfold_words
  rw [View.read_writes_eq_canon _ _ _ (fun y => ⟨_, List.mem_cons.mpr (Or.inl rfl), View.mem_set_unit_zero zeroOff0 inb_S512x2048_S512x2048_0_0 y⟩)]
  simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]

set_option maxHeartbeats 2000000 in
/-- A point with `0 < k < 3`: each accumulator has its product added; the output block is left as it was. -/
theorem glu_mid (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x1024 .bf16) (x1 x2 : Vec F S2048x1024 .bf16) (xi : Vec F S512x2048 .bf16) (xg xu : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 x1 xg) ∗ owns (c : Thread nD τ) arg8 fullShare (k0_pay5 x0 x2 xu)) -∗ K ⟨⟩))
      ⊢ wp frame (wpE (defs₀ (F := F)) Variants.none c none) E (cc0__glu_kernel i arg3 harg3 arg4 harg4 arg5 harg5 arg6 harg6 arg7 harg7 arg8 harg8) K := by
  simp only [cc0__glu_kernel_eq_skeleton]; unfold cc0__glu_kernel_skel
  unfold owns
  iintro ⟨⟨%f0, %hf0, H0⟩, ⟨%f1, %hf1, H1⟩, ⟨%f2, %hf2, H2⟩, ⟨%f3, %hf3, H3⟩, ⟨%fg, %hfg, HG⟩, ⟨%fu, %hfu, HU⟩, Hk⟩
  obtain rfl := harg3.eq_unread hf0; obtain rfl := harg4.eq_unread hf1; obtain rfl := harg5.eq_unread hf2; obtain rfl := harg6.eq_unread hf3
  obtain rfl := harg7.eq_unread hfg; obtain rfl := harg8.eq_unread hfu
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  iexists _; isplitr
  swap; · iexact HU
  ipureintro
  sl_unfold_words
  rw [View.read_writes_eq_canon _ _ _ (fun y => ⟨_, List.mem_cons.mpr (Or.inl rfl), View.mem_set_unit_zero zeroOff0 inb_S512x2048_S512x2048_0_0 y⟩)]
  simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]

set_option maxHeartbeats 2000000 in
/-- A point with `k = 3`: each accumulator has its product added, and the output block becomes the activation of the two
    accumulated values. -/
theorem glu_last (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x1024 .bf16) (x1 x2 : Vec F S2048x1024 .bf16) (xg xu : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare (k0_pay6 (k0_pay4 x0 x1 xg) (k0_pay5 x0 x2 xu)) ∗ owns (c : Thread nD τ) arg7 fullShare (k0_pay4 x0 x1 xg) ∗ owns (c : Thread nD τ) arg8 fullShare (k0_pay5 x0 x2 xu)) -∗ K ⟨⟩))
      ⊢ wp frame (wpE (defs₀ (F := F)) Variants.none c none) E (cc0__glu_kernel i arg3 harg3 arg4 harg4 arg5 harg5 arg6 harg6 arg7 harg7 arg8 harg8) K := by
  simp only [cc0__glu_kernel_eq_skeleton]; unfold cc0__glu_kernel_skel
  unfold owns
  iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
  obtain rfl := harg3.eq_unread hf0; obtain rfl := harg4.eq_unread hf1; obtain rfl := harg5.eq_unread hf2
  obtain rfl := harg7.eq_unread hfg; obtain rfl := harg8.eq_unread hfu
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  isplitl [HG]
  · iexists _; isplitr
    swap; · iexact HG
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  iexists _; isplitr
  swap; · iexact HU
  ipureintro
  sl_unfold_words
  rw [View.read_writes_eq_canon _ _ _ (fun y => ⟨_, List.mem_cons.mpr (Or.inl rfl), View.mem_set_unit_zero zeroOff0 inb_S512x2048_S512x2048_0_0 y⟩)]
  simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]

/-! ## The accumulators after each point -/

/-- What the gate's accumulator holds after point `n`. -/
def accG0 (c : Dev nD) : (n : ℕ) → n < cfg0.N → Vec F S512x2048 .f32
  | 0, hn => k0_pay4 (iblk0 V c 0 ⟨0, hn⟩) (iblk0 V c 1 ⟨0, hn⟩) k0_pay1
  | n + 1, hn =>
    if (n + 1) % 4 = 0 then k0_pay4 (iblk0 V c 0 ⟨n + 1, hn⟩) (iblk0 V c 1 ⟨n + 1, hn⟩) k0_pay1
    else k0_pay4 (iblk0 V c 0 ⟨n + 1, hn⟩) (iblk0 V c 1 ⟨n + 1, hn⟩) (accG0 c n (Nat.lt_of_succ_lt hn))

/-- What the value's accumulator holds after point `n`. -/
def accU0 (c : Dev nD) : (n : ℕ) → n < cfg0.N → Vec F S512x2048 .f32
  | 0, hn => k0_pay5 (iblk0 V c 0 ⟨0, hn⟩) (iblk0 V c 2 ⟨0, hn⟩) k0_pay2
  | n + 1, hn =>
    if (n + 1) % 4 = 0 then k0_pay5 (iblk0 V c 0 ⟨n + 1, hn⟩) (iblk0 V c 2 ⟨n + 1, hn⟩) k0_pay2
    else k0_pay5 (iblk0 V c 0 ⟨n + 1, hn⟩) (iblk0 V c 2 ⟨n + 1, hn⟩) (accU0 c n (Nat.lt_of_succ_lt hn))

theorem accG0_first (c : Dev nD) (t : Fin cfg0.N) (h0 : t.val % 4 = 0) :
    accG0 V c t.val t.isLt = k0_pay4 (iblk0 V c 0 t) (iblk0 V c 1 t) k0_pay1 := by
  obtain ⟨n, hn⟩ := t
  cases n with
  | zero => rfl
  | succ n => exact (if_pos h0)

theorem accG0_next (c : Dev nD) (t : Fin cfg0.N) (h0 : ¬t.val % 4 = 0) :
    accG0 V c t.val t.isLt = k0_pay4 (iblk0 V c 0 t) (iblk0 V c 1 t) (accG0 V c (t.val - 1) (Nat.lt_of_le_of_lt (Nat.sub_le _ _) t.isLt)) := by
  obtain ⟨n, hn⟩ := t
  cases n with
  | zero => exact absurd (Nat.zero_mod _) h0
  | succ n => exact (if_neg h0)

theorem accU0_first (c : Dev nD) (t : Fin cfg0.N) (h0 : t.val % 4 = 0) :
    accU0 V c t.val t.isLt = k0_pay5 (iblk0 V c 0 t) (iblk0 V c 2 t) k0_pay2 := by
  obtain ⟨n, hn⟩ := t
  cases n with
  | zero => rfl
  | succ n => exact (if_pos h0)

theorem accU0_next (c : Dev nD) (t : Fin cfg0.N) (h0 : ¬t.val % 4 = 0) :
    accU0 V c t.val t.isLt = k0_pay5 (iblk0 V c 0 t) (iblk0 V c 2 t) (accU0 V c (t.val - 1) (Nat.lt_of_le_of_lt (Nat.sub_le _ _) t.isLt)) := by
  obtain ⟨n, hn⟩ := t
  cases n with
  | zero => exact absurd (Nat.zero_mod _) h0
  | succ n => exact (if_neg h0)

/-! ## The region's invariant -/

/-- Everything the kernel may use and need not describe, less the two accumulators: given them back, at any contents, it is
    the core's scoped buffers that are no staging buffer of this region. -/
def Oth0 (c : Dev nD) : sProp 𝕄 := iprop(((∃ d, owns (c : Thread nD τ) gM0 fullShare d) ∗ (∃ d, owns (c : Thread nD τ) uM0 fullShare d)) -∗ Pipeline.scopedRest (Ix := Unit) (Name := ℕ) (U := UR sig nD τ) (Lvl := ℕ) (Val := Elt F) spec0 c)

/-- Before point `n`: at the start what the region is handed; afterwards the accumulators at what the point before left. -/
def Inv0 (c : Dev nD) : (n : ℕ) → n ≤ cfg0.N → sProp 𝕄
  | 0, _ => Pipeline.ΦA spec0 c
  | n + 1, hn => iprop(Oth0 (F := F) c ∗ owns (c : Thread nD τ) gM0 fullShare (accG0 V c n hn) ∗ owns (c : Thread nD τ) uM0 fullShare (accU0 V c n hn) ∗ (∃ r, prngReg c r))

theorem Inv0_succ (c : Dev nD) (n : ℕ) (hn : n < cfg0.N) :
    Inv0 V c (n + 1) hn = iprop(Oth0 (F := F) c ∗ owns (c : Thread nD τ) gM0 fullShare (accG0 V c n hn) ∗ owns (c : Thread nD τ) uM0 fullShare (accU0 V c n hn) ∗ (∃ r, prngReg c r)) := rfl

theorem Inv0_pos (c : Dev nD) (n : ℕ) (h : n ≤ cfg0.N) (hz : n ≠ 0) :
    Inv0 V c n h = iprop(Oth0 (F := F) c ∗ owns (c : Thread nD τ) gM0 fullShare (accG0 V c (n - 1) (by omega)) ∗ owns (c : Thread nD τ) uM0 fullShare (accU0 V c (n - 1) (by omega)) ∗ (∃ r, prngReg c r)) := by
  cases n with
  | zero => exact absurd rfl hz
  | succ n => rfl

/-- What the region is handed splits into the two accumulators at some contents and the rest. -/
theorem entry0_split (c : Dev nD) :
    (Pipeline.ΦA spec0 c : sProp 𝕄) ⊢ iprop(Oth0 (F := F) c ∗ (∃ d, owns (c : Thread nD τ) gM0 fullShare d) ∗ (∃ d, owns (c : Thread nD τ) uM0 fullShare d) ∗ (∃ r, prngReg c r)) := by
  unfold Pipeline.ΦA Oth0
  rw [scopedRest0_eq]
  simp only [gM0, uM0, owns_whole]
  iintro ⟨⟨⟨%f1, H1⟩, ⟨%f2, H2⟩, Hrest⟩, Hg⟩
  isplitl [Hrest]
  · iintro ⟨⟨%d1, Hs1⟩, ⟨%d2, Hs2⟩⟩
    isplitl [Hs1]; · iexists d1; iexact Hs1
    isplitl [Hs2]; · iexists d2; iexact Hs2
    iexact Hrest
  isplitl [H1]; · iexists f1; iexact H1
  isplitl [H2]; · iexists f2; iexact H2
  iexact Hg

/-- Before any point the accumulators are there at some contents. -/
theorem Inv0_any (c : Dev nD) (n : ℕ) (h : n ≤ cfg0.N) :
    Inv0 V c n h ⊢ iprop(Oth0 (F := F) c ∗ (∃ d, owns (c : Thread nD τ) gM0 fullShare d) ∗ (∃ d, owns (c : Thread nD τ) uM0 fullShare d) ∗ (∃ r, prngReg c r)) := by
  cases n with
  | zero => exact entry0_split c
  | succ n =>
    rw [Inv0_succ]
    iintro ⟨Ho, Hs1, Hs2, Hg⟩
    isplitl [Ho]; · iexact Ho
    isplitl [Hs1]; · iexists _; iexact Hs1
    isplitl [Hs2]; · iexists _; iexact Hs2
    iexact Hg

/-- With the accumulators back, the rest is what the region was handed. -/
theorem exit0_join (c : Dev nD) :
    iprop(Oth0 (F := F) c ∗ (∃ d, owns (c : Thread nD τ) gM0 fullShare d) ∗ (∃ d, owns (c : Thread nD τ) uM0 fullShare d) ∗ (∃ r, prngReg c r)) ⊢ (Pipeline.ΦA spec0 c : sProp 𝕄) := by
  unfold Pipeline.ΦA Oth0
  iintro ⟨Ho, Hs1, Hs2, Hg⟩
  isplitl [Ho Hs1 Hs2]
  · iapply Ho
    isplitl [Hs1]; · iexact Hs1
    iexact Hs2
  iexact Hg

/-! ## The proof data -/

/-- The arrays as the region finds them; after the body at point `t` each input's buffer at its block and the output's at the
    activation of the two accumulators' values there; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accG0 V c t.val t.isLt) (accU0 V c t.val t.isLt)
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (accG0 V c t.val t.isLt) (accU0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: which case the point is in is decided by `k`; the invariant hands the body the accumulators (at what
    the point before left, or at anything when `k = 0`) and takes them back at this point's values. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [Inv0_castSucc V c t]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accG0_first V c t h0, accU0_first V c t h0]
    refine (sep_mono (Inv0_any V c t.val (Nat.le_of_lt t.isLt)) .rfl).trans ?_
    iintro ⟨⟨Hoth, HG, HU, Hg⟩, Ho, ⟨%d0, H0⟩, ⟨%d1, H1⟩, ⟨%d2, H2⟩, ⟨%d3, H3⟩⟩
    iapply (glu_first c (grid0.coords t) _ _ _ _ _ _ _ _ _ _ _ _ hc0 hc1 (iblk0 V c 0 t) (iblk0 V c 1 t) (iblk0 V c 2 t) _ Set.univ _)
    isplitl [H0]; · iexact H0
    isplitl [H1]; · iexact H1
    isplitl [H2]; · iexact H2
    isplitl [H3]; · iexact H3
    isplitl [HG]; · iexact HG
    isplitl [HU]; · iexact HU
    iintro ⟨H0, H1, H2, H3, HG, HU⟩
    isplitl [Hoth HG HU Hg]
    · isplitl [Hoth]; · iexact Hoth
      isplitl [HG]; · iexact HG
      isplitl [HU]; · iexact HU
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [Inv0_pos V c _ _ hz, accG0_next V c t h0, accU0_next V c t h0]
    by_cases h1 : t.val % 4 = 3
    · have hc0 : ¬cond0_0 (grid0.coords t) := fun h => h0 ((hcond0_0 t).mp h)
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, accG0_next V c t h0, accU0_next V c t h0]
      iintro ⟨⟨Hoth, HG, HU, Hg⟩, Ho, ⟨%d0, H0⟩, ⟨%d1, H1⟩, ⟨%d2, H2⟩, ⟨%d3, H3⟩⟩
      iapply (glu_last c (grid0.coords t) _ _ _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexists _; iexact H3
      isplitl [HG]; · iexact HG
      isplitl [HU]; · iexact HU
      iintro ⟨H0, H1, H2, H3, HG, HU⟩
      isplitl [Hoth HG HU Hg]
      · isplitl [Hoth]; · iexact Hoth
        isplitl [HG]; · iexact HG
        isplitl [HU]; · iexact HU
        iexact Hg
      isplitl [Ho]; · iexact Ho
      isplitl [H0]; · iexact H0
      isplitl [H1]; · iexact H1
      isplitl [H2]; · iexact H2
      iexact H3
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 3 t (idleAt0_3 t hc1) (noFlush0_3 t hc1)]
      iintro ⟨⟨Hoth, HG, HU, Hg⟩, Ho, ⟨%d0, H0⟩, ⟨%d1, H1⟩, ⟨%d2, H2⟩, ⟨%d3, H3⟩⟩
      iapply (glu_mid c (grid0.coords t) _ _ _ _ _ _ _ _ _ _ _ _ hc0 hc1 (iblk0 V c 0 t) (iblk0 V c 1 t) (iblk0 V c 2 t) _ _ _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [Hoth HG HU Hg]
      · isplitl [Hoth]; · iexact Hoth
        isplitl [HG]; · iexact HG
        isplitl [HU]; · iexact HU
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point; after the last point it gives the same back. -/
theorem hin0 (c : Dev nD) : (Pipeline.ΦA spec0 c : sProp 𝕄) ⊢ (dat0 V c).Φ 0 := by
  rw [show (dat0 V c).Φ 0 = Inv0 V c 0 (Nat.zero_le _) from rfl]; exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = Inv0 V c (Fin.last cfg0.N).val (Nat.le_of_lt_succ (Fin.last cfg0.N).isLt) from rfl]
  exact (Inv0_any V c _ _).trans (exit0_join c)

end Cert.Kernel.Hand
end
-- ==== Proof.Bits.DownRegion.lean ====
/-
  The second kernel region (the output projection), at any float instance, from the buffer contents `V` the region is
  entered with.

  The grid is 8 × 2 × 8 points `(i, j, k)`, `k` innermost. At a point the kernel multiplies a 512 × 2048 block of the
  hidden activations (rows of tile `i`, columns of slice `k`) by the transpose of a 2048 × 2048 block of the weights
  (rows of tile `j`, columns of slice `k`) and adds the product to an accumulator it keeps between points: at `k = 0`
  the accumulator is first set to zero, at `k = 7` its value is also stored into the output block `(i, j)`, which is
  written back there and nowhere else. So after point `t` the accumulator holds the sum of the products of the slices
  `0 … k` of the current tile, and the block written back at `k = 7` is the accumulator's value there.
-/
import proofs.«179451_j81046032875547_1_alg».proof.Proof.Gen.Kernel.Launch
import proofs.«179451_j81046032875547_1_alg».proof.Proof.Gen.Kernel.Skeleton
import proofs.«179451_j81046032875547_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of activations is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of weights is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- `k = 0`: the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- `k = 7`: the accumulator is stored into the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Where `k ≠ 7` nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging buffers and the accumulator -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
/-- The accumulator. -/
abbrev acM1 : Memref sig .tc .vmem S512x2048 .f32 := Memref.whole cc1_scratch0

theorem zeroOff : (![0, 0] : Fin 2 → Nat) = fun _ => 0 := by funext a; fin_cases a <;> rfl

/-! ## The body, case by case -/

set_option maxHeartbeats 1000000 in
/-- A point with `0 < k < 7`: the accumulator `xs` becomes `xs +` the product of the two blocks; the output block is
    left as it was. -/
theorem down_mid (c : Dev nD) (i : grid1.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (hc0 : ¬cond1_0 i) (hc1 : ¬cond1_1 i)
    (x0 : Vec F S512x2048 .bf16) (x1 : Vec F S2048x2048 .bf16) (xs : Vec F S512x2048 .f32) (xi : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 xs)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons.mpr (Or.inl rfl), View.mem_set_unit_zero zeroOff inb_S512x2048_S512x2048_0_0 y⟩)]
  simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]

set_option maxHeartbeats 1000000 in
/-- A point with `k = 0`: the accumulator, whatever it held, becomes `0 +` the product of the two blocks; the output
    block is left as it was. -/
theorem down_first (c : Dev nD) (i : grid1.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (hc0 : cond1_0 i) (hc1 : ¬cond1_1 i)
    (x0 : Vec F S512x2048 .bf16) (x1 : Vec F S2048x2048 .bf16) (xi : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 k1_pay1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons.mpr (Or.inl rfl), View.mem_set_unit_zero zeroOff inb_S512x2048_S512x2048_0_0 y⟩)]
  simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]

set_option maxHeartbeats 1000000 in
/-- A point with `k = 7`: the accumulator `xs` becomes `xs +` the product of the two blocks, and that value is also
    what the output block holds afterwards. -/
theorem down_last (c : Dev nD) (i : grid1.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (hc0 : ¬cond1_0 i) (hc1 : cond1_1 i)
    (x0 : Vec F S512x2048 .bf16) (x1 : Vec F S2048x2048 .bf16) (xs : Vec F S512x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.mem_cons.mpr (Or.inl rfl), View.mem_set_unit_zero zeroOff inb_S512x2048_S512x2048_0_0 y⟩)]
    simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]
  iexists _; isplitr
  swap; · iexact HS
  ipureintro
  sl_unfold_words
  rw [View.read_writes_eq_canon _ _ _ (fun y => ⟨_, List.mem_cons.mpr (Or.inl rfl), View.mem_set_unit_zero zeroOff inb_S512x2048_S512x2048_0_0 y⟩)]
  simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]

/-! ## The accumulator after each point -/

/-- What the accumulator holds after point `n`: at `k = 0` the product of the point's two blocks added to zero, at a later
    `k` that product added to what the point before left. -/
def accAt1 (c : Dev nD) : (n : ℕ) → n < cfg1.N → Vec F S512x2048 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

theorem accAt1_first (c : Dev nD) (t : Fin cfg1.N) (h0 : t.val % 8 = 0) :
    accAt1 V c t.val t.isLt = k1_pay2 (iblk1 V c 0 t) (iblk1 V c 1 t) k1_pay1 := by
  obtain ⟨n, hn⟩ := t
  cases n with
  | zero => rfl
  | succ n => exact (if_pos h0)

theorem accAt1_next (c : Dev nD) (t : Fin cfg1.N) (h0 : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0)

/-! ## The region's invariant -/

/-- Everything the kernel may use and need not describe, less the accumulator: given the accumulator back, at any contents,
    it is the core's scoped buffers that are no staging buffer of this region. -/
def Oth1 (c : Dev nD) : sProp 𝕄 := iprop((∃ d, owns (c : Thread nD τ) acM1 fullShare d) -∗ Pipeline.scopedRest (Ix := Unit) (Name := ℕ) (U := UR sig nD τ) (Lvl := ℕ) (Val := Elt F) spec1 c)

/-- Before point `n`: at the start what the region is handed; afterwards the accumulator at what the point before left. -/
def Inv1 (c : Dev nD) : (n : ℕ) → n ≤ cfg1.N → sProp 𝕄
  | 0, _ => Pipeline.ΦA spec1 c
  | n + 1, hn => iprop(Oth1 (F := F) c ∗ owns (c : Thread nD τ) acM1 fullShare (accAt1 V c n hn) ∗ (∃ r, prngReg c r))

theorem Inv1_succ (c : Dev nD) (n : ℕ) (hn : n < cfg1.N) :
    Inv1 V c (n + 1) hn = iprop(Oth1 (F := F) c ∗ owns (c : Thread nD τ) acM1 fullShare (accAt1 V c n hn) ∗ (∃ r, prngReg c r)) := rfl

theorem Inv1_pos (c : Dev nD) (n : ℕ) (h : n ≤ cfg1.N) (hz : n ≠ 0) :
    Inv1 V c n h = iprop(Oth1 (F := F) c ∗ owns (c : Thread nD τ) acM1 fullShare (accAt1 V c (n - 1) (by omega)) ∗ (∃ r, prngReg c r)) := by
  cases n with
  | zero => exact absurd rfl hz
  | succ n => rfl

/-- What the region is handed splits into the accumulator at some contents and the rest. -/
theorem entry1_split (c : Dev nD) :
    (Pipeline.ΦA spec1 c : sProp 𝕄) ⊢ iprop(Oth1 (F := F) c ∗ (∃ d, owns (c : Thread nD τ) acM1 fullShare d) ∗ (∃ r, prngReg c r)) := by
  unfold Pipeline.ΦA Oth1
  rw [scopedRest1_eq]
  simp only [acM1, owns_whole]
  iintro ⟨⟨H1, H2, H3, H4, H5, H6, H7, H8, H9, H10, ⟨%f, H11⟩⟩, Hg⟩
  isplitl [H1 H2 H3 H4 H5 H6 H7 H8 H9 H10]
  · iintro ⟨%d, Hs⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists d; iexact Hs
  isplitl [H11]
  · iexists f; iexact H11
  iexact Hg

/-- Before any point the accumulator is there at some contents. -/
theorem Inv1_any (c : Dev nD) (n : ℕ) (h : n ≤ cfg1.N) :
    Inv1 V c n h ⊢ iprop(Oth1 (F := F) c ∗ (∃ d, owns (c : Thread nD τ) acM1 fullShare d) ∗ (∃ r, prngReg c r)) := by
  cases n with
  | zero => exact entry1_split c
  | succ n =>
    rw [Inv1_succ]
    iintro ⟨Ho, Hs, Hg⟩
    isplitl [Ho]; · iexact Ho
    isplitl [Hs]; · iexists _; iexact Hs
    iexact Hg

/-- With the accumulator back, the rest is what the region was handed. -/
theorem exit1_join (c : Dev nD) :
    iprop(Oth1 (F := F) c ∗ (∃ d, owns (c : Thread nD τ) acM1 fullShare d) ∗ (∃ r, prngReg c r)) ⊢ (Pipeline.ΦA spec1 c : sProp 𝕄) := by
  unfold Pipeline.ΦA Oth1
  iintro ⟨Ho, Hs, Hg⟩
  isplitl [Ho Hs]
  · iapply Ho; iexact Hs
  iexact Hg

/-! ## The proof data -/

/-- The arrays as the region finds them; after the body at point `t` each input's buffer at its block and the output's at the
    accumulator's value there; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Inv1_castSucc (c : Dev nD) (t : Fin cfg1.N) :
    (dat1 V c).Φ t.castSucc = Inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which case the point is in is decided by `k`; the invariant hands the body the accumulator (at what
    the point before left, or at anything when `k = 0`) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  rw [Inv1_castSucc V c t]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt1_first V c t h0]
    refine (sep_mono (Inv1_any V c t.val (Nat.le_of_lt t.isLt)) .rfl).trans ?_
    iintro ⟨⟨Hoth, HS, Hg⟩, Ho, ⟨%d0, H0⟩, ⟨%d1, H1⟩, ⟨%d2, H2⟩⟩
    iapply (down_first c (grid1.coords t) _ _ _ _ _ _ _ _ hc0 hc1 (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexists _; iexact H2
  · have hz : t.val ≠ 0 := fun h => h0 (by rw [h])
    rw [Inv1_pos V c _ _ hz, accAt1_next V c t h0]
    by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, accAt1_next V c t h0]
      iintro ⟨⟨Hoth, HS, Hg⟩, Ho, ⟨%d0, H0⟩, ⟨%d1, H1⟩, ⟨%d2, H2⟩⟩
      iapply (down_last c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexact H2
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 2 t (idleAt1_2 t hc1) (noFlush1_2 t hc1)]
      iintro ⟨⟨Hoth, HS, Hg⟩, Ho, ⟨%d0, H0⟩, ⟨%d1, H1⟩, ⟨%d2, H2⟩⟩
      iapply (down_mid c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point; after the last point it gives the same back. -/
theorem hin1 (c : Dev nD) : (Pipeline.ΦA spec1 c : sProp 𝕄) ⊢ (dat1 V c).Φ 0 := by
  rw [show (dat1 V c).Φ 0 = Inv1 V c 0 (Nat.zero_le _) from rfl]; exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = Inv1 V c (Fin.last cfg1.N).val (Nat.le_of_lt_succ (Fin.last cfg1.N).isLt) from rfl]
  exact (Inv1_any V c _ _).trans (exit1_join c)

end Cert.Kernel.Hand
end
-- ==== Proof.Bits.Run.lean ====
/-
  The whole run of the program at any float instance: host operations, the first kernel region, the second kernel region,
  a last reshape — with what every buffer of the core holds at each boundary.

  The contents at a boundary are those at the boundary before it with what the item between them changes: a stretch of host
  operations writes its results; a region replaces the contents of the arrays under its windows by what its write-backs
  leave (its inputs unchanged, its output holding, block by block, what the body stored at the block's last point). The run
  ends with every buffer at the last boundary's contents; in particular no item writes an argument.
-/
import proofs.«179451_j81046032875547_1_alg».proof.Proof.Bits.GluRegion
import proofs.«179451_j81046032875547_1_alg».proof.Proof.Bits.DownRegion
import proofs.«179451_j81046032875547_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host operations before the regions. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region. -/
def W2 (c : Dev nD) : Valuation τ sig (Elt F) :=
  Pipeline.withArrays spec0 c (W1 m c) fun w => (dat0 (E1 m) c).arrAt w cfg0.N
abbrev E2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (E2 m) c).arrAt w cfg1.N
abbrev E3 : (c : Dev nD) → (b : Ref sig .tc) → Buf (Elt F) ((c : Thread nD τ).loc b) := fun c b => W3 m c b
/-- After the last reshape. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- A buffer that no host operation writes and that is under no window's array ends as launched. -/
theorem W4_kept (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b hs1
    _ = W1 m c (Proc.devRef .tc b) := W2_of_ne m c b hs0
    _ = W0 m c (Proc.devRef .tc b) := StableHlo.after_of_writes_sub hostOps0 _ hostOps0_writes h0
    _ = m ((c : Thread nD τ).loc b) := rfl

/-! ## The proof data family and the thread state -/

abbrev adm' : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items of the run -/

set_option backward.isDefEq.respectTransparency.types false in
/-- The first region: entered from the contents `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's items in order. -/
abbrev segs : List (Pipeline.Seg (pcfgs (F := F)) adm' (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

abbrev Tlast (c : Dev nD) : sProp 𝕄 := iprop(StableHlo.held (c : Thread nD τ) (Pipeline.ucRefs τ sig) (W4 m c) ∗ ∃ r, prngReg c r)

set_option backward.isDefEq.respectTransparency.types false in
/-- Every weakly fair execution of the program from memory `m` ends, nothing faulting, with every buffer that outlives the
    regions at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide))⟩)
    (run_all m ρ)

end Cert.Kernel.Hand

end
-- ==== Proof.Ideal.GluRegion.lean ====
/-
  The first kernel region (the gated hidden layer), at any float instance, from the buffer contents `V` the region is
  entered with.

  The grid is 8 × 8 × 4 points `(i, j, k)`, `k` innermost. At a point the kernel multiplies a 512 × 1024 block of the
  input rows (tile `i`, slice `k`) by the transposes of two 2048 × 1024 blocks of weights (tile `j`, slice `k`: the gate's
  and the value's) and adds each product to an accumulator of its own, kept between points: at `k = 0` both are first set
  to zero; at `k = 3` the block `(g · σ(g)) · u` of the two accumulators' values `g`, `u` is stored into the output block
  `(i, j)`, which is written back there and nowhere else.
-/
import proofs.«179451_j81046032875547_1_alg».proof.Proof.Gen.KernelIdeal.Launch
import proofs.«179451_j81046032875547_1_alg».proof.Proof.Gen.KernelIdeal.Skeleton
import proofs.«179451_j81046032875547_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's block is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's block is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's block is in its staging buffer at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- `k = 0`: the accumulators are reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- `k = 3`: the activation block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where `k ≠ 3` nothing is stored into the output block and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The staging buffers and the accumulators -/

abbrev ms0_0 (t : Fin cfg0.N) : Memref sig .tc .vmem S512x1024 .bf16 := win0_0.stage (cfg0.slots t 0)
abbrev ms0_1 (t : Fin cfg0.N) : Memref sig .tc .vmem S2048x1024 .bf16 := win0_1.stage (cfg0.slots t 1)
abbrev ms0_2 (t : Fin cfg0.N) : Memref sig .tc .vmem S2048x1024 .bf16 := win0_2.stage (cfg0.slots t 2)
abbrev ms0_3 (t : Fin cfg0.N) : Memref sig .tc .vmem S512x2048 .bf16 := win0_3.stage (cfg0.slots t 3)
/-- The gate's accumulator and the value's. -/
abbrev gM0 : Memref sig .tc .vmem S512x2048 .f32 := Memref.whole cc0_scratch0
abbrev uM0 : Memref sig .tc .vmem S512x2048 .f32 := Memref.whole cc0_scratch1

theorem zeroOff0 : (![0, 0] : Fin 2 → Nat) = fun _ => 0 := by funext a; fin_cases a <;> rfl

/-! ## The body, case by case -/

set_option maxHeartbeats 2000000 in
/-- A point with `k = 0`: each accumulator, whatever it held, becomes `0 +` its product; the output block is left as it was. -/
theorem glu_first (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i)
    (x0 : Vec F S512x1024 .bf16) (x1 x2 : Vec F S2048x1024 .bf16) (xi : Vec F S512x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 x1 k0_pay1) ∗ owns (c : Thread nD τ) arg8 fullShare (k0_pay5 x0 x2 k0_pay2)) -∗ K ⟨⟩))
      ⊢ wp frame (wpE (defs₀ (F := F)) Variants.none c none) E (cc0__glu_kernel i arg3 harg3 arg4 harg4 arg5 harg5 arg6 harg6 arg7 harg7 arg8 harg8) K := by
  simp only [cc0__glu_kernel_eq_skeleton]; unfold cc0__glu_kernel_skel
  unfold owns
  iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  iexists _; isplitr
  swap; · iexact HU
  ipureintro
  sl_unfold_words
  rw [View.read_writes_eq_canon _ _ _ (fun y => ⟨_, List.mem_cons.mpr (Or.inl rfl), View.mem_set_unit_zero zeroOff0 inb_S512x2048_S512x2048_0_0 y⟩)]
  simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]

set_option maxHeartbeats 2000000 in
/-- A point with `0 < k < 3`: each accumulator has its product added; the output block is left as it was. -/
theorem glu_mid (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i)
    (x0 : Vec F S512x1024 .bf16) (x1 x2 : Vec F S2048x1024 .bf16) (xi : Vec F S512x2048 .bf16) (xg xu : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay4 x0 x1 xg) ∗ owns (c : Thread nD τ) arg8 fullShare (k0_pay5 x0 x2 xu)) -∗ K ⟨⟩))
      ⊢ wp frame (wpE (defs₀ (F := F)) Variants.none c none) E (cc0__glu_kernel i arg3 harg3 arg4 harg4 arg5 harg5 arg6 harg6 arg7 harg7 arg8 harg8) K := by
  simp only [cc0__glu_kernel_eq_skeleton]; unfold cc0__glu_kernel_skel
  unfold owns
  iintro ⟨⟨%f0, %hf0, H0⟩, ⟨%f1, %hf1, H1⟩, ⟨%f2, %hf2, H2⟩, ⟨%f3, %hf3, H3⟩, ⟨%fg, %hfg, HG⟩, ⟨%fu, %hfu, HU⟩, Hk⟩
  obtain rfl := harg3.eq_unread hf0; obtain rfl := harg4.eq_unread hf1; obtain rfl := harg5.eq_unread hf2; obtain rfl := harg6.eq_unread hf3
  obtain rfl := harg7.eq_unread hfg; obtain rfl := harg8.eq_unread hfu
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HG]
  · iexists _; isplitr
    swap; · iexact HG
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  iexists _; isplitr
  swap; · iexact HU
  ipureintro
  sl_unfold_words
  rw [View.read_writes_eq_canon _ _ _ (fun y => ⟨_, List.mem_cons.mpr (Or.inl rfl), View.mem_set_unit_zero zeroOff0 inb_S512x2048_S512x2048_0_0 y⟩)]
  simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]

set_option maxHeartbeats 2000000 in
/-- A point with `k = 3`: each accumulator has its product added, and the output block becomes the activation of the two
    accumulated values. -/
theorem glu_last (c : Dev nD) (i : grid0.Coords) (arg3 : Memref sig .tc .vmem S512x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S512x2048 .bf16) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i)
    (x0 : Vec F S512x1024 .bf16) (x1 x2 : Vec F S2048x1024 .bf16) (xg xu : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xg ∗ owns (c : Thread nD τ) arg8 fullShare xu
        ∗ (iprop(owns (c : Thread nD τ) arg3 fullShare x0 ∗ owns (c : Thread nD τ) arg4 fullShare x1 ∗ owns (c : Thread nD τ) arg5 fullShare x2 ∗ owns (c : Thread nD τ) arg6 fullShare (k0_pay6 (k0_pay4 x0 x1 xg) (k0_pay5 x0 x2 xu)) ∗ owns (c : Thread nD τ) arg7 fullShare (k0_pay4 x0 x1 xg) ∗ owns (c : Thread nD τ) arg8 fullShare (k0_pay5 x0 x2 xu)) -∗ K ⟨⟩))
      ⊢ wp frame (wpE (defs₀ (F := F)) Variants.none c none) E (cc0__glu_kernel i arg3 harg3 arg4 harg4 arg5 harg5 arg6 harg6 arg7 harg7 arg8 harg8) K := by
  simp only [cc0__glu_kernel_eq_skeleton]; unfold cc0__glu_kernel_skel
  unfold owns
  iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
  obtain rfl := harg3.eq_unread hf0; obtain rfl := harg4.eq_unread hf1; obtain rfl := harg5.eq_unread hf2
  obtain rfl := harg7.eq_unread hfg; obtain rfl := harg8.eq_unread hfu
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  isplitl [HG]
  · iexists _; isplitr
    swap; · iexact HG
    ipureintro
    sl_unfold_words
    rw [View.read_writes_eq_canon _ _ _ (fun y => ⟨_, List.mem_cons.mpr (Or.inl rfl), View.mem_set_unit_zero zeroOff0 inb_S512x2048_S512x2048_0_0 y⟩)]
    simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]
  iexists _; isplitr
  swap; · iexact HU
  ipureintro
  sl_unfold_words
  rw [View.read_writes_eq_canon _ _ _ (fun y => ⟨_, List.mem_cons.mpr (Or.inl rfl), View.mem_set_unit_zero zeroOff0 inb_S512x2048_S512x2048_0_0 y⟩)]
  simp only [View.canon_cons_unit_zero (S := S512x2048) zeroOff0, View.readCov_unit_zero (S := S512x2048) _ zeroOff0, View.readAt_eq_ld, Memref.IsWhole.read_unread, View.ld_unit_zero (S := S512x2048) zeroOff0, View.ld_unit_zero (S := S512x1024) zeroOff0, View.ld_unit_zero (S := S2048x1024) zeroOff0]

/-! ## The accumulators after each point -/

/-- What the gate's accumulator holds after point `n`. -/
def accG0 (c : Dev nD) : (n : ℕ) → n < cfg0.N → Vec F S512x2048 .f32
  | 0, hn => k0_pay4 (iblk0 V c 0 ⟨0, hn⟩) (iblk0 V c 1 ⟨0, hn⟩) k0_pay1
  | n + 1, hn =>
    if (n + 1) % 4 = 0 then k0_pay4 (iblk0 V c 0 ⟨n + 1, hn⟩) (iblk0 V c 1 ⟨n + 1, hn⟩) k0_pay1
    else k0_pay4 (iblk0 V c 0 ⟨n + 1, hn⟩) (iblk0 V c 1 ⟨n + 1, hn⟩) (accG0 c n (Nat.lt_of_succ_lt hn))

/-- What the value's accumulator holds after point `n`. -/
def accU0 (c : Dev nD) : (n : ℕ) → n < cfg0.N → Vec F S512x2048 .f32
  | 0, hn => k0_pay5 (iblk0 V c 0 ⟨0, hn⟩) (iblk0 V c 2 ⟨0, hn⟩) k0_pay2
  | n + 1, hn =>
    if (n + 1) % 4 = 0 then k0_pay5 (iblk0 V c 0 ⟨n + 1, hn⟩) (iblk0 V c 2 ⟨n + 1, hn⟩) k0_pay2
    else k0_pay5 (iblk0 V c 0 ⟨n + 1, hn⟩) (iblk0 V c 2 ⟨n + 1, hn⟩) (accU0 c n (Nat.lt_of_succ_lt hn))

theorem accG0_first (c : Dev nD) (t : Fin cfg0.N) (h0 : t.val % 4 = 0) :
    accG0 V c t.val t.isLt = k0_pay4 (iblk0 V c 0 t) (iblk0 V c 1 t) k0_pay1 := by
  obtain ⟨n, hn⟩ := t
  cases n with
  | zero => rfl
  | succ n => exact (if_pos h0)

theorem accG0_next (c : Dev nD) (t : Fin cfg0.N) (h0 : ¬t.val % 4 = 0) :
    accG0 V c t.val t.isLt = k0_pay4 (iblk0 V c 0 t) (iblk0 V c 1 t) (accG0 V c (t.val - 1) (Nat.lt_of_le_of_lt (Nat.sub_le _ _) t.isLt)) := by
  obtain ⟨n, hn⟩ := t
  cases n with
  | zero => exact absurd (Nat.zero_mod _) h0
  | succ n => exact (if_neg h0)

theorem accU0_first (c : Dev nD) (t : Fin cfg0.N) (h0 : t.val % 4 = 0) :
    accU0 V c t.val t.isLt = k0_pay5 (iblk0 V c 0 t) (iblk0 V c 2 t) k0_pay2 := by
  obtain ⟨n, hn⟩ := t
  cases n with
  | zero => rfl
  | succ n => exact (if_pos h0)

theorem accU0_next (c : Dev nD) (t : Fin cfg0.N) (h0 : ¬t.val % 4 = 0) :
    accU0 V c t.val t.isLt = k0_pay5 (iblk0 V c 0 t) (iblk0 V c 2 t) (accU0 V c (t.val - 1) (Nat.lt_of_le_of_lt (Nat.sub_le _ _) t.isLt)) := by
  obtain ⟨n, hn⟩ := t
  cases n with
  | zero => exact absurd (Nat.zero_mod _) h0
  | succ n => exact (if_neg h0)

/-! ## The region's invariant -/

/-- Everything the kernel may use and need not describe, less the two accumulators: given them back, at any contents, it is
    the core's scoped buffers that are no staging buffer of this region. -/
def Oth0 (c : Dev nD) : sProp 𝕄 := iprop(((∃ d, owns (c : Thread nD τ) gM0 fullShare d) ∗ (∃ d, owns (c : Thread nD τ) uM0 fullShare d)) -∗ Pipeline.scopedRest (Ix := Unit) (Name := ℕ) (U := UR sig nD τ) (Lvl := ℕ) (Val := Elt F) spec0 c)

/-- Before point `n`: at the start what the region is handed; afterwards the accumulators at what the point before left. -/
def Inv0 (c : Dev nD) : (n : ℕ) → n ≤ cfg0.N → sProp 𝕄
  | 0, _ => Pipeline.ΦA spec0 c
  | n + 1, hn => iprop(Oth0 (F := F) c ∗ owns (c : Thread nD τ) gM0 fullShare (accG0 V c n hn) ∗ owns (c : Thread nD τ) uM0 fullShare (accU0 V c n hn) ∗ (∃ r, prngReg c r))

theorem Inv0_succ (c : Dev nD) (n : ℕ) (hn : n < cfg0.N) :
    Inv0 V c (n + 1) hn = iprop(Oth0 (F := F) c ∗ owns (c : Thread nD τ) gM0 fullShare (accG0 V c n hn) ∗ owns (c : Thread nD τ) uM0 fullShare (accU0 V c n hn) ∗ (∃ r, prngReg c r)) := rfl

theorem Inv0_pos (c : Dev nD) (n : ℕ) (h : n ≤ cfg0.N) (hz : n ≠ 0) :
    Inv0 V c n h = iprop(Oth0 (F := F) c ∗ owns (c : Thread nD τ) gM0 fullShare (accG0 V c (n - 1) (by omega)) ∗ owns (c : Thread nD τ) uM0 fullShare (accU0 V c (n - 1) (by omega)) ∗ (∃ r, prngReg c r)) := by
  cases n with
  | zero => exact absurd rfl hz
  | succ n => rfl

/-- What the region is handed splits into the two accumulators at some contents and the rest. -/
theorem entry0_split (c : Dev nD) :
    (Pipeline.ΦA spec0 c : sProp 𝕄) ⊢ iprop(Oth0 (F := F) c ∗ (∃ d, owns (c : Thread nD τ) gM0 fullShare d) ∗ (∃ d, owns (c : Thread nD τ) uM0 fullShare d) ∗ (∃ r, prngReg c r)) := by
  unfold Pipeline.ΦA Oth0
  rw [scopedRest0_eq]
  simp only [gM0, uM0, owns_whole]
  iintro ⟨⟨⟨%f1, H1⟩, ⟨%f2, H2⟩, Hrest⟩, Hg⟩
  isplitl [Hrest]
  · iintro ⟨⟨%d1, Hs1⟩, ⟨%d2, Hs2⟩⟩
    isplitl [Hs1]; · iexists d1; iexact Hs1
    isplitl [Hs2]; · iexists d2; iexact Hs2
    iexact Hrest
  isplitl [H1]; · iexists f1; iexact H1
  isplitl [H2]; · iexists f2; iexact H2
  iexact Hg

/-- Before any point the accumulators are there at some contents. -/
theorem Inv0_any (c : Dev nD) (n : ℕ) (h : n ≤ cfg0.N) :
    Inv0 V c n h ⊢ iprop(Oth0 (F := F) c ∗ (∃ d, owns (c : Thread nD τ) gM0 fullShare d) ∗ (∃ d, owns (c : Thread nD τ) uM0 fullShare d) ∗ (∃ r, prngReg c r)) := by
  cases n with
  | zero => exact entry0_split c
  | succ n =>
    rw [Inv0_succ]
    iintro ⟨Ho, Hs1, Hs2, Hg⟩
    isplitl [Ho]; · iexact Ho
    isplitl [Hs1]; · iexists _; iexact Hs1
    isplitl [Hs2]; · iexists _; iexact Hs2
    iexact Hg

/-- With the accumulators back, the rest is what the region was handed. -/
theorem exit0_join (c : Dev nD) :
    iprop(Oth0 (F := F) c ∗ (∃ d, owns (c : Thread nD τ) gM0 fullShare d) ∗ (∃ d, owns (c : Thread nD τ) uM0 fullShare d) ∗ (∃ r, prngReg c r)) ⊢ (Pipeline.ΦA spec0 c : sProp 𝕄) := by
  unfold Pipeline.ΦA Oth0
  iintro ⟨Ho, Hs1, Hs2, Hg⟩
  isplitl [Ho Hs1 Hs2]
  · iapply Ho
    isplitl [Hs1]; · iexact Hs1
    iexact Hs2
  iexact Hg

/-! ## The proof data -/

/-- The arrays as the region finds them; after the body at point `t` each input's buffer at its block and the output's at the
    activation of the two accumulators' values there; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accG0 V c t.val t.isLt) (accU0 V c t.val t.isLt)
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Inv0_castSucc (c : Dev nD) (t : Fin cfg0.N) :
    (dat0 V c).Φ t.castSucc = Inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (accG0 V c t.val t.isLt) (accU0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: which case the point is in is decided by `k`; the invariant hands the body the accumulators (at what
    the point before left, or at anything when `k = 0`) and takes them back at this point's values. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [Inv0_castSucc V c t]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [accG0_first V c t h0, accU0_first V c t h0]
    refine (sep_mono (Inv0_any V c t.val (Nat.le_of_lt t.isLt)) .rfl).trans ?_
    iintro ⟨⟨Hoth, HG, HU, Hg⟩, Ho, ⟨%d0, H0⟩, ⟨%d1, H1⟩, ⟨%d2, H2⟩, ⟨%d3, H3⟩⟩
    iapply (glu_first c (grid0.coords t) _ _ _ _ _ _ _ _ _ _ _ _ hc0 hc1 (iblk0 V c 0 t) (iblk0 V c 1 t) (iblk0 V c 2 t) _ Set.univ _)
    isplitl [H0]; · iexact H0
    isplitl [H1]; · iexact H1
    isplitl [H2]; · iexact H2
    isplitl [H3]; · iexact H3
    isplitl [HG]; · iexact HG
    isplitl [HU]; · iexact HU
    iintro ⟨H0, H1, H2, H3, HG, HU⟩
    isplitl [Hoth HG HU Hg]
    · isplitl [Hoth]; · iexact Hoth
      isplitl [HG]; · iexact HG
      isplitl [HU]; · iexact HU
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [Inv0_pos V c _ _ hz, accG0_next V c t h0, accU0_next V c t h0]
    by_cases h1 : t.val % 4 = 3
    · have hc0 : ¬cond0_0 (grid0.coords t) := fun h => h0 ((hcond0_0 t).mp h)
      have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, accG0_next V c t h0, accU0_next V c t h0]
      iintro ⟨⟨Hoth, HG, HU, Hg⟩, Ho, ⟨%d0, H0⟩, ⟨%d1, H1⟩, ⟨%d2, H2⟩, ⟨%d3, H3⟩⟩
      iapply (glu_last c (grid0.coords t) _ _ _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexists _; iexact H3
      isplitl [HG]; · iexact HG
      isplitl [HU]; · iexact HU
      iintro ⟨H0, H1, H2, H3, HG, HU⟩
      isplitl [Hoth HG HU Hg]
      · isplitl [Hoth]; · iexact Hoth
        isplitl [HG]; · iexact HG
        isplitl [HU]; · iexact HU
        iexact Hg
      isplitl [Ho]; · iexact Ho
      isplitl [H0]; · iexact H0
      isplitl [H1]; · iexact H1
      isplitl [H2]; · iexact H2
      iexact H3
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 3 t (idleAt0_3 t hc1) (noFlush0_3 t hc1)]
      iintro ⟨⟨Hoth, HG, HU, Hg⟩, Ho, ⟨%d0, H0⟩, ⟨%d1, H1⟩, ⟨%d2, H2⟩, ⟨%d3, H3⟩⟩
      iapply (glu_mid c (grid0.coords t) _ _ _ _ _ _ _ _ _ _ _ _ hc0 hc1 (iblk0 V c 0 t) (iblk0 V c 1 t) (iblk0 V c 2 t) _ _ _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, HG, HU⟩
      isplitl [Hoth HG HU Hg]
      · isplitl [Hoth]; · iexact Hoth
        isplitl [HG]; · iexact HG
        isplitl [HU]; · iexact HU
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point; after the last point it gives the same back. -/
theorem hin0 (c : Dev nD) : (Pipeline.ΦA spec0 c : sProp 𝕄) ⊢ (dat0 V c).Φ 0 := by
  rw [show (dat0 V c).Φ 0 = Inv0 V c 0 (Nat.zero_le _) from rfl]; exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = Inv0 V c (Fin.last cfg0.N).val (Nat.le_of_lt_succ (Fin.last cfg0.N).isLt) from rfl]
  exact (Inv0_any V c _ _).trans (exit0_join c)

end Cert.KernelIdeal.Hand
end
-- ==== Proof.Ideal.DownRegion.lean ====
/-
  The second kernel region (the output projection), at any float instance, from the buffer contents `V` the region is
  entered with.

  The grid is 8 × 2 × 8 points `(i, j, k)`, `k` innermost. At a point the kernel multiplies a 512 × 2048 block of the
  hidden activations (rows of tile `i`, columns of slice `k`) by the transpose of a 2048 × 2048 block of the weights
  (rows of tile `j`, columns of slice `k`) and adds the product to an accumulator it keeps between points: at `k = 0`
  the accumulator is first set to zero, at `k = 7` its value is also stored into the output block `(i, j)`, which is
  written back there and nowhere else. So after point `t` the accumulator holds the sum of the products of the slices
  `0 … k` of the current tile, and the block written back at `k = 7` is the accumulator's value there.
-/
import proofs.«179451_j81046032875547_1_alg».proof.Proof.Gen.KernelIdeal.Launch
import proofs.«179451_j81046032875547_1_alg».proof.Proof.Gen.KernelIdeal.Skeleton
import proofs.«179451_j81046032875547_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of activations is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of weights is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- `k = 0`: the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- `k = 7`: the accumulator is stored into the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Where `k ≠ 7` nothing is stored into the output block and it is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging buffers and the accumulator -/

abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
/-- The accumulator. -/
abbrev acM1 : Memref sig .tc .vmem S512x2048 .f32 := Memref.whole cc1_scratch0

theorem zeroOff : (![0, 0] : Fin 2 → Nat) = fun _ => 0 := by funext a; fin_cases a <;> rfl

/-! ## The body, case by case -/

set_option maxHeartbeats 1000000 in
/-- A point with `0 < k < 7`: the accumulator `xs` becomes `xs +` the product of the two blocks; the output block is
    left as it was. -/
theorem down_mid (c : Dev nD) (i : grid1.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (hc0 : ¬cond1_0 i) (hc1 : ¬cond1_1 i)
    (x0 : Vec F S512x2048 .bf16) (x1 : Vec F S2048x2048 .bf16) (xs : Vec F S512x2048 .f32) (xi : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 xs)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons.mpr (Or.inl rfl), View.mem_set_unit_zero zeroOff inb_S512x2048_S512x2048_0_0 y⟩)]
  simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]

set_option maxHeartbeats 1000000 in
/-- A point with `k = 0`: the accumulator, whatever it held, becomes `0 +` the product of the two blocks; the output
    block is left as it was. -/
theorem down_first (c : Dev nD) (i : grid1.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (hc0 : cond1_0 i) (hc1 : ¬cond1_1 i)
    (x0 : Vec F S512x2048 .bf16) (x1 : Vec F S2048x2048 .bf16) (xi : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 k1_pay1)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [View.read_writes_eq_canon _ _ _ (fun y => ⟨_, List.mem_cons.mpr (Or.inl rfl), View.mem_set_unit_zero zeroOff inb_S512x2048_S512x2048_0_0 y⟩)]
  simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]

set_option maxHeartbeats 1000000 in
/-- A point with `k = 7`: the accumulator `xs` becomes `xs +` the product of the two blocks, and that value is also
    what the output block holds afterwards. -/
theorem down_last (c : Dev nD) (i : grid1.Coords) (arg3 : Memref sig .tc .vmem S512x2048 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .f32) (harg6 : arg6.IsWhole) (hc0 : ¬cond1_0 i) (hc1 : cond1_1 i)
    (x0 : Vec F S512x2048 .bf16) (x1 : Vec F S2048x2048 .bf16) (xs : Vec F S512x2048 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay2 x0 x1 xs) ∗ owns (c : Thread nD τ) arg6 fullShare (k1_pay2 x0 x1 xs)) -∗ K ⟨⟩))
      ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [View.read_writes_eq_canon _ _ _ (fun y => ⟨_, List.mem_cons.mpr (Or.inl rfl), View.mem_set_unit_zero zeroOff inb_S512x2048_S512x2048_0_0 y⟩)]
    simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]
  iexists _; isplitr
  swap; · iexact HS
  ipureintro
  sl_unfold_words
  rw [View.read_writes_eq_canon _ _ _ (fun y => ⟨_, List.mem_cons.mpr (Or.inl rfl), View.mem_set_unit_zero zeroOff inb_S512x2048_S512x2048_0_0 y⟩)]
  simp only [View.canon_cons_unit_zero (S := S512x2048) zeroOff, View.readCov_unit_zero (S := S512x2048) _ zeroOff, View.readAt_eq_ld, Memref.IsWhole.read_unread, View.ld_unit_zero (S := S512x2048) zeroOff, View.ld_unit_zero (S := S2048x2048) zeroOff]

/-! ## The accumulator after each point -/

/-- What the accumulator holds after point `n`: at `k = 0` the product of the point's two blocks added to zero, at a later
    `k` that product added to what the point before left. -/
def accAt1 (c : Dev nD) : (n : ℕ) → n < cfg1.N → Vec F S512x2048 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

theorem accAt1_first (c : Dev nD) (t : Fin cfg1.N) (h0 : t.val % 8 = 0) :
    accAt1 V c t.val t.isLt = k1_pay2 (iblk1 V c 0 t) (iblk1 V c 1 t) k1_pay1 := by
  obtain ⟨n, hn⟩ := t
  cases n with
  | zero => rfl
  | succ n => exact (if_pos h0)

theorem accAt1_next (c : Dev nD) (t : Fin cfg1.N) (h0 : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact (if_neg h0)

/-! ## The region's invariant -/

/-- Everything the kernel may use and need not describe, less the accumulator: given the accumulator back, at any contents,
    it is the core's scoped buffers that are no staging buffer of this region. -/
def Oth1 (c : Dev nD) : sProp 𝕄 := iprop((∃ d, owns (c : Thread nD τ) acM1 fullShare d) -∗ Pipeline.scopedRest (Ix := Unit) (Name := ℕ) (U := UR sig nD τ) (Lvl := ℕ) (Val := Elt F) spec1 c)

/-- Before point `n`: at the start what the region is handed; afterwards the accumulator at what the point before left. -/
def Inv1 (c : Dev nD) : (n : ℕ) → n ≤ cfg1.N → sProp 𝕄
  | 0, _ => Pipeline.ΦA spec1 c
  | n + 1, hn => iprop(Oth1 (F := F) c ∗ owns (c : Thread nD τ) acM1 fullShare (accAt1 V c n hn) ∗ (∃ r, prngReg c r))

theorem Inv1_succ (c : Dev nD) (n : ℕ) (hn : n < cfg1.N) :
    Inv1 V c (n + 1) hn = iprop(Oth1 (F := F) c ∗ owns (c : Thread nD τ) acM1 fullShare (accAt1 V c n hn) ∗ (∃ r, prngReg c r)) := rfl

theorem Inv1_pos (c : Dev nD) (n : ℕ) (h : n ≤ cfg1.N) (hz : n ≠ 0) :
    Inv1 V c n h = iprop(Oth1 (F := F) c ∗ owns (c : Thread nD τ) acM1 fullShare (accAt1 V c (n - 1) (by omega)) ∗ (∃ r, prngReg c r)) := by
  cases n with
  | zero => exact absurd rfl hz
  | succ n => rfl

/-- What the region is handed splits into the accumulator at some contents and the rest. -/
theorem entry1_split (c : Dev nD) :
    (Pipeline.ΦA spec1 c : sProp 𝕄) ⊢ iprop(Oth1 (F := F) c ∗ (∃ d, owns (c : Thread nD τ) acM1 fullShare d) ∗ (∃ r, prngReg c r)) := by
  unfold Pipeline.ΦA Oth1
  rw [scopedRest1_eq]
  simp only [acM1, owns_whole]
  iintro ⟨⟨H1, H2, H3, H4, H5, H6, H7, H8, H9, H10, ⟨%f, H11⟩⟩, Hg⟩
  isplitl [H1 H2 H3 H4 H5 H6 H7 H8 H9 H10]
  · iintro ⟨%d, Hs⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists d; iexact Hs
  isplitl [H11]
  · iexists f; iexact H11
  iexact Hg

/-- Before any point the accumulator is there at some contents. -/
theorem Inv1_any (c : Dev nD) (n : ℕ) (h : n ≤ cfg1.N) :
    Inv1 V c n h ⊢ iprop(Oth1 (F := F) c ∗ (∃ d, owns (c : Thread nD τ) acM1 fullShare d) ∗ (∃ r, prngReg c r)) := by
  cases n with
  | zero => exact entry1_split c
  | succ n =>
    rw [Inv1_succ]
    iintro ⟨Ho, Hs, Hg⟩
    isplitl [Ho]; · iexact Ho
    isplitl [Hs]; · iexists _; iexact Hs
    iexact Hg

/-- With the accumulator back, the rest is what the region was handed. -/
theorem exit1_join (c : Dev nD) :
    iprop(Oth1 (F := F) c ∗ (∃ d, owns (c : Thread nD τ) acM1 fullShare d) ∗ (∃ r, prngReg c r)) ⊢ (Pipeline.ΦA spec1 c : sProp 𝕄) := by
  unfold Pipeline.ΦA Oth1
  iintro ⟨Ho, Hs, Hg⟩
  isplitl [Ho Hs]
  · iapply Ho; iexact Hs
  iexact Hg

/-! ## The proof data -/

/-- The arrays as the region finds them; after the body at point `t` each input's buffer at its block and the output's at the
    accumulator's value there; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Inv1_castSucc (c : Dev nD) (t : Fin cfg1.N) :
    (dat1 V c).Φ t.castSucc = Inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which case the point is in is decided by `k`; the invariant hands the body the accumulator (at what
    the point before left, or at anything when `k = 0`) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  rw [Inv1_castSucc V c t]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [accAt1_first V c t h0]
    refine (sep_mono (Inv1_any V c t.val (Nat.le_of_lt t.isLt)) .rfl).trans ?_
    iintro ⟨⟨Hoth, HS, Hg⟩, Ho, ⟨%d0, H0⟩, ⟨%d1, H1⟩, ⟨%d2, H2⟩⟩
    iapply (down_first c (grid1.coords t) _ _ _ _ _ _ _ _ hc0 hc1 (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexists _; iexact H2
  · have hz : t.val ≠ 0 := fun h => h0 (by rw [h])
    rw [Inv1_pos V c _ _ hz, accAt1_next V c t h0]
    by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, accAt1_next V c t h0]
      iintro ⟨⟨Hoth, HS, Hg⟩, Ho, ⟨%d0, H0⟩, ⟨%d1, H1⟩, ⟨%d2, H2⟩⟩
      iapply (down_last c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexact H2
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 2 t (idleAt1_2 t hc1) (noFlush1_2 t hc1)]
      iintro ⟨⟨Hoth, HS, Hg⟩, Ho, ⟨%d0, H0⟩, ⟨%d1, H1⟩, ⟨%d2, H2⟩⟩
      iapply (down_mid c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point; after the last point it gives the same back. -/
theorem hin1 (c : Dev nD) : (Pipeline.ΦA spec1 c : sProp 𝕄) ⊢ (dat1 V c).Φ 0 := by
  rw [show (dat1 V c).Φ 0 = Inv1 V c 0 (Nat.zero_le _) from rfl]; exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = Inv1 V c (Fin.last cfg1.N).val (Nat.le_of_lt_succ (Fin.last cfg1.N).isLt) from rfl]
  exact (Inv1_any V c _ _).trans (exit1_join c)

end Cert.KernelIdeal.Hand
end
-- ==== Proof.Ideal.Run.lean ====
/-
  The whole run of the program at any float instance: host operations, the first kernel region, the second kernel region,
  a last reshape — with what every buffer of the core holds at each boundary.

  The contents at a boundary are those at the boundary before it with what the item between them changes: a stretch of host
  operations writes its results; a region replaces the contents of the arrays under its windows by what its write-backs
  leave (its inputs unchanged, its output holding, block by block, what the body stored at the block's last point). The run
  ends with every buffer at the last boundary's contents; in particular no item writes an argument.
-/
import proofs.«179451_j81046032875547_1_alg».proof.Proof.Ideal.GluRegion
import proofs.«179451_j81046032875547_1_alg».proof.Proof.Ideal.DownRegion
import proofs.«179451_j81046032875547_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the host operations before the regions. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region. -/
def W2 (c : Dev nD) : Valuation τ sig (Elt F) :=
  Pipeline.withArrays spec0 c (W1 m c) fun w => (dat0 (E1 m) c).arrAt w cfg0.N
abbrev E2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (E2 m) c).arrAt w cfg1.N
abbrev E3 : (c : Dev nD) → (b : Ref sig .tc) → Buf (Elt F) ((c : Thread nD τ).loc b) := fun c b => W3 m c b
/-- After the last reshape. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- A buffer that no host operation writes and that is under no window's array ends as launched. -/
theorem W4_kept (c : Dev nD) (b : Ref sig .tc) (h0 : b ∉ hostOps0_W) (h2 : b ∉ hostOps2_W)
    (hs0 : ∀ w, Pipeline.arrRef spec0 w ≠ b) (hs1 : ∀ w, Pipeline.arrRef spec1 w ≠ b) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b hs1
    _ = W1 m c (Proc.devRef .tc b) := W2_of_ne m c b hs0
    _ = W0 m c (Proc.devRef .tc b) := StableHlo.after_of_writes_sub hostOps0 _ hostOps0_writes h0
    _ = m ((c : Thread nD τ).loc b) := rfl

/-! ## The proof data family and the thread state -/

abbrev adm' : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items of the run -/

set_option backward.isDefEq.respectTransparency.types false in
/-- The first region: entered from the contents `W1`, left at `W2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's items in order. -/
abbrev segs : List (Pipeline.Seg (pcfgs (F := F)) adm' (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

abbrev Tlast (c : Dev nD) : sProp 𝕄 := iprop(StableHlo.held (c : Thread nD τ) (Pipeline.ucRefs τ sig) (W4 m c) ∗ ∃ r, prngReg c r)

set_option backward.isDefEq.respectTransparency.types false in
/-- Every weakly fair execution of the program from memory `m` ends, nothing faulting, with every buffer that outlives the
    regions at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends holding its launch contents. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide))⟩)
    (run_all m ρ)

end Cert.KernelIdeal.Hand

end
-- ==== Proof.Spec.lean ====
/-
  The function both programs compute, on the extended reals, index by index.

  A gated two-layer perceptron over 4096 rows: for a row `r` of the flattened input `X` (4096 × 4096) and a hidden
  unit `j` (of 16384), the gate `g = ⟨X r, Wg j⟩` and the value `u = ⟨X r, Wu j⟩` are inner products of row `r` of `X`
  with row `j` of the two weight matrices; the hidden activation is `(g · σ(g)) · u` with `σ` the logistic function;
  the output at `(r, o)` is the inner product of the row of hidden activations with row `o` of the third weight matrix.
  The input arrives as 2 × 2048 × 4096 and the result leaves in that arrangement: row `r` is `(r / 2048, r % 2048)`.
-/
import Idealize.ShloMosaic.Lib.ValueIdx
import Idealize.ShloMosaic.PureOps.Ideal

noncomputable section

namespace Cert.Mlp

open Idealize.ShloMosaic Idealize.ShloMosaic.ValueIdx

/-- Matrices of the three extents, and the batched arrangement of the input and of the result. -/
abbrev Rows : Shape := ⟨2, ![4096, 4096]⟩
abbrev Wide : Shape := ⟨2, ![16384, 4096]⟩
abbrev Tall : Shape := ⟨2, ![4096, 16384]⟩
abbrev Batched : Shape := ⟨3, ![2, 2048, 4096]⟩

/-- The hidden activation of row `r` at unit `j`: `(g · σ(g)) · u`. -/
def hiddenAt (X : Rows.Idx → EReal) (Wg Wu : Wide.Idx → EReal) (r : Fin 4096) (j : Fin 16384) : EReal :=
  ((∑ k : Fin 4096, X (ix2 r k) * Wg (ix2 j k)) * Ideal.logistic (∑ k : Fin 4096, X (ix2 r k) * Wg (ix2 j k)))
    * (∑ k : Fin 4096, X (ix2 r k) * Wu (ix2 j k))

/-- The matrix of hidden activations. -/
def hidden (X : Rows.Idx → EReal) (Wg Wu : Wide.Idx → EReal) : Tall.Idx → EReal :=
  fun i => hiddenAt X Wg Wu (i 0) (i 1)

/-- The output at `(r, o)`: the row of activations against row `o` of the third matrix. -/
def outAt (H Wd : Tall.Idx → EReal) (r o : Fin 4096) : EReal :=
  ∑ k : Fin 16384, H (ix2 r k) * Wd (ix2 o k)

/-- The output matrix. -/
def out (H Wd : Tall.Idx → EReal) : Rows.Idx → EReal :=
  fun i => outAt H Wd (i 0) (i 1)

/-- Row `2048 · b + s` of the flattened matrix is entry `(b, s)` of the batched array. -/
def rowOf (b : Fin 2) (s : Fin 2048) : Fin 4096 := ⟨2048 * b.val + s.val, by omega⟩

/-- The batched input read as a matrix. -/
def flat (x : Batched.Idx → EReal) : Rows.Idx → EReal :=
  fun i => x (ix3 (⟨(i 0).val / 2048, by have := (i 0).isLt; change _ < 4096 at this; omega⟩ : Fin 2)
    (⟨(i 0).val % 2048, Nat.mod_lt _ (by decide)⟩ : Fin 2048) (i 1))

/-- A matrix read in the batched arrangement. -/
def unflat (Y : Rows.Idx → EReal) : Batched.Idx → EReal :=
  fun i => Y (ix2 (rowOf (i 0) (i 1)) (i 2))

end Cert.Mlp

end
-- ==== Proof.LibMergeAxes.lean ====
/-
  Three-axis arrays re-laid and reduced, read at an index (program-independent; imports only the library).

  An array [a, b, c] viewed as the matrix [n, c] with n = a * b has row p * b + q equal to row (p, q) of the array, and
  the matrix viewed back as the array likewise: the two indices sit at one row-major position. A matrix [a, b] given a
  trailing unit axis, [a, b, 1], reads (p, q) at (p, q, 0). An array with a unit axis broadcast along that axis reads
  the same entry whatever the coordinate on it — for each of the three axes. At the ideal values a sum along the last
  axis is the sum over that axis's coordinates, and a maximum along it the fold of max over them.
-/
import Idealize.ShloMosaic.Lib.ValueIdx
import Idealize.ShloMosaic.Lib.Pipeline.Value
import Idealize.ShloMosaic.PureOps.Ideal.Laws

noncomputable section

namespace Cert.MergeAxes

open Idealize.ShloMosaic Idealize.ShloMosaic.ValueIdx

variable {α : Type}

/-- [a, b, c] viewed as [n, c]: row r = p * b + q of the matrix is row (p, q) of the array. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- [n, c] viewed as [a, b, c]: row (p, q) of the array is row r = p * b + q of the matrix. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

/-- A matrix [a, b] given a trailing unit axis reads, at (p, q, z), its entry (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_two, Shape.rowMajor_val_three]
    show p.val * b + q.val = (p.val * b + q.val) * 1 + z.val
    rw [hz, Nat.mul_one, Nat.add_zero])

/-- [1, b, c] broadcast along axis 0 reads, at (p, q, k), the entry (0, q, k). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ x h (ix3 p q k) = x (ix3 (0 : Fin 1) q k) :=
  broadcastTo_apply x h _ _ (fun d => match d with
    | ⟨0, _⟩ => by
      show 0 = if (1 : Nat) = 1 then 0 else p.val
      rw [if_pos rfl]
    | ⟨1, _⟩ => by
      show q.val = if b = 1 then 0 else q.val
      by_cases hb : b = 1
      · rw [if_pos hb]; have := q.isLt; omega
      · rw [if_neg hb]
    | ⟨2, _⟩ => by
      show k.val = if c = 1 then 0 else k.val
      by_cases hc : c = 1
      · rw [if_pos hc]; have := k.isLt; omega
      · rw [if_neg hc])

/-- [a, 1, c] broadcast along axis 1 reads, at (p, q, k), the entry (p, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ x h (ix3 p q k) = x (ix3 p (0 : Fin 1) k) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show 0 = if (1 : Nat) = 1 then 0 else q.val
      rw [if_pos rfl]
    | ⟨2, _⟩ => by
      show k.val = if c = 1 then 0 else k.val
      by_cases hc : c = 1
      · rw [if_pos hc]; have := k.isLt; omega
      · rw [if_neg hc])

/-- [a, b, 1] broadcast along axis 2 reads, at (p, q, k), the entry (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show q.val = if b = 1 then 0 else q.val
      by_cases hb : b = 1
      · rw [if_pos hb]; have := q.isLt; omega
      · rw [if_neg hb]
    | ⟨2, _⟩ => by
      show 0 = if (1 : Nat) = 1 then 0 else k.val
      rw [if_pos rfl])

/-- Over the kept entry (p, q), the index with coordinate k put back on the reduced last axis is (p, q, k). -/
theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- At the ideal values the sum along the last axis, at (p, q), is the sum of the entries (p, q, k). -/
theorem multiReduction_add_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ X acc h hφ hacc (ix2 p q) = ∑ k : Fin c, X (ix3 p q k) := by
  refine (Ideal.multiReduction_add_single X acc h hφ hacc (ix2 p q)).trans ?_
  exact Finset.sum_congr rfl fun k _ => congrArg X (lift_last h p q k)

/-- At the ideal values the maximum along the last axis, at (p, q), is the fold of max over the entries (p, q, k) from
    the value of the accumulator's pattern. -/
theorem multiReduction_max_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ X acc h hφ hacc (ix2 p q)
      = (Finset.univ : Finset (Fin c)).fold max (Ideal.ofBits φ acc) (fun k => X (ix3 p q k)) := by
  refine (Ideal.multiReduction_maximumf_single X acc h hφ hacc (ix2 p q)).trans ?_
  have e : (X ∘ h.lift (ix2 p q))
      = fun k : Fin ((⟨3, ![a, b, c]⟩ : Shape).size 2) => X (ix3 p q (⟨k.val, k.isLt⟩ : Fin c)) :=
    funext fun k => congrArg X (lift_last h p q k)
  rw [e]
  rfl

end Cert.MergeAxes

end
-- ==== Proof.Ideal.HostSide.lean ====
/-
  What the host operations before the kernels leave in the arrays the kernels read, on the extended reals: the flattened
  input, and the three quantised weight matrices — each the same function of its argument arrays as in the reference (a
  change of float format is the identity here).
-/
import proofs.«179451_j81046032875547_1_alg».proof.Proof.Gen.KernelIdeal.Launch
import proofs.«179451_j81046032875547_1_alg».proof.Proof.Gen.ReferenceIdeal.Read
import proofs.«179451_j81046032875547_1_alg».proof.Proof.Spec
import Idealize.ShloMosaic.Lib.StableHlo.Run
import Idealize.ShloMosaic.Lib.Pipeline.Value
import proofs.«179451_j81046032875547_1_alg».proof.Proof.LibMergeAxes

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 2000000 in
/-- The gate's weights as the first kernel finds them. -/
theorem pre_gate (c : Dev nD) :
    StableHlo.after (hostOps0 (F := Ideal)) (fun b => m (c, b)) (Proc.devRef .tc main_v13)
      = Cert.ReferenceIdeal.Read.val_main_v10 (F := Ideal) (m ((c : Thread nD τ).loc main_arg1)) (m ((c : Thread nD τ).loc main_arg2)) := by
  after_results_simp <;> rfl

set_option maxHeartbeats 2000000 in
/-- The value's weights as the first kernel finds them. -/
theorem pre_up (c : Dev nD) :
    StableHlo.after (hostOps0 (F := Ideal)) (fun b => m (c, b)) (Proc.devRef .tc main_v25)
      = Cert.ReferenceIdeal.Read.val_main_v22 (F := Ideal) (m ((c : Thread nD τ).loc main_arg3)) (m ((c : Thread nD τ).loc main_arg4)) := by
  after_results_simp <;> rfl

set_option maxHeartbeats 2000000 in
/-- The output projection's weights as the second kernel finds them. -/
theorem pre_down (c : Dev nD) :
    StableHlo.after (hostOps0 (F := Ideal)) (fun b => m (c, b)) (Proc.devRef .tc main_v37)
      = Cert.ReferenceIdeal.Read.val_main_v36 (F := Ideal) (m ((c : Thread nD τ).loc main_arg5)) (m ((c : Thread nD τ).loc main_arg6)) := by
  after_results_simp <;> rfl

set_option maxHeartbeats 2000000 in
/-- The input as the first kernel finds it: the batched array read as a matrix. -/
theorem pre_rows (c : Dev nD) :
    StableHlo.after (hostOps0 (F := Ideal)) (fun b => m (c, b)) (Proc.devRef .tc main_v1)
      = Cert.Mlp.flat (m ((c : Thread nD τ).loc main_arg0)) := by
  after_results_simp
  funext i
  obtain ⟨r, k, rfl⟩ : ∃ (r : Fin 4096) (k : Fin 4096), i = ValueIdx.ix2 r k := ⟨i 0, i 1, ValueIdx.eq_ix2 i⟩
  exact Cert.MergeAxes.shapeCast_abc_nc_apply (m (c, Proc.tc.devRef main_arg0)) shapeCasts_S2x2048x4096_S4096x4096
    (⟨r.val / 2048, by omega⟩ : Fin 2) (⟨r.val % 2048, Nat.mod_lt _ (by decide)⟩ : Fin 2048) k r
    (by show r.val = r.val / 2048 * 2048 + r.val % 2048; omega)

set_option maxHeartbeats 2000000 in
/-- The last reshape: the result matrix read in the batched arrangement. -/
theorem post_reshape (W : Valuation τ sig (Elt Ideal)) :
    StableHlo.after (hostOps2 (F := Ideal)) W (Proc.devRef .tc main_v40) = Cert.Mlp.unflat (W (Proc.devRef .tc main_v39)) := by
  after_results_simp
  funext i
  obtain ⟨b, s, o, rfl⟩ : ∃ (b : Fin 2) (s : Fin 2048) (o : Fin 4096), i = ValueIdx.ix3 b s o := ⟨i 0, i 1, i 2, ValueIdx.eq_ix3 i⟩
  exact Cert.MergeAxes.shapeCast_nc_abc_apply (W (Proc.tc.devRef main_v39)) shapeCasts_S4096x4096_S2x2048x4096 b s o (Cert.Mlp.rowOf b s)
    (by show 2048 * b.val + s.val = b.val * 2048 + s.val; omega)

end Cert.KernelIdeal.HostSide
end
-- ==== Proof.Ideal.Payloads.lean ====
/-
  The two kernels' arithmetic, read at one element `(p, q)` of a 512 × 2048 block, on the extended reals.

  Each kernel keeps running totals in 512 × 2048 blocks. A total starts as the zero block (`pay1_zero` and its two
  companions: a broadcast zero, cast to its own shape). One step adds to the total at `(p, q)` the inner product of row
  `p` of the left block with row `q` of the right block — both operands are contracted along their second axis —
  over the block's 1024 columns for the gate and value totals (`gate_step`, `up_step`) and 2048 columns for the output
  total (`down_step`). The activation written at the end of the first kernel is `(g · σ(g)) · u` of the two totals, `σ`
  the logistic function; narrowing it to sixteen bits changes nothing on the extended reals (`act_apply`).
-/
import proofs.«179451_j81046032875547_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The zero blocks -/

/-- The output total's starting block is zero everywhere. -/
theorem pay1_zero (p : Fin 512) (q : Fin 2048) : k1_pay1 (F := Ideal) (ix2 p q) = 0 := by
  unfold k1_pay1
  simp only [shapeCast_self, broadcast_apply]
  exact Ideal.ofBits_zero_f32

/-- The gate total's starting block is zero everywhere. -/
theorem gate_zero (p : Fin 512) (q : Fin 2048) : k0_pay1 (F := Ideal) (ix2 p q) = 0 := by
  unfold k0_pay1
  simp only [shapeCast_self, broadcast_apply]
  exact Ideal.ofBits_zero_f32

/-- The value total's starting block is zero everywhere. -/
theorem up_zero (p : Fin 512) (q : Fin 2048) : k0_pay2 (F := Ideal) (ix2 p q) = 0 := by
  unfold k0_pay2
  simp only [shapeCast_self, broadcast_apply]
  exact Ideal.ofBits_zero_f32

/-! ### The dot record of the 2048-term block product: both operands contract their axis 1 -/

theorem mm2048_lhs_0 (j : S512x2048.Idx) (k : dot_S512x2048_S2048x2048_S512x2048_1_1_0_0_n_n.contr.Idx) :
    (dot_S512x2048_S2048x2048_S512x2048_1_1_0_0_n_n.lhsIdx j k 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem mm2048_lhs_1 (j : S512x2048.Idx) (k : dot_S512x2048_S2048x2048_S512x2048_1_1_0_0_n_n.contr.Idx) :
    (dot_S512x2048_S2048x2048_S512x2048_1_1_0_0_n_n.lhsIdx j k 1).val = (k ⟨0, by decide⟩).val :=
  dot_S512x2048_S2048x2048_S512x2048_1_1_0_0_n_n.lhsIdx_val_of_single rfl j k
theorem mm2048_rhs_0 (j : S512x2048.Idx) (k : dot_S512x2048_S2048x2048_S512x2048_1_1_0_0_n_n.contr.Idx) :
    (dot_S512x2048_S2048x2048_S512x2048_1_1_0_0_n_n.rhsIdx j k 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem mm2048_rhs_1 (j : S512x2048.Idx) (k : dot_S512x2048_S2048x2048_S512x2048_1_1_0_0_n_n.contr.Idx) :
    (dot_S512x2048_S2048x2048_S512x2048_1_1_0_0_n_n.rhsIdx j k 1).val = (k ⟨0, by decide⟩).val :=
  dot_S512x2048_S2048x2048_S512x2048_1_1_0_0_n_n.rhsIdx_val_of_single rfl j k

/-- The block product into the zero accumulator, at `(p, q)`: row `p` of the left block against row `q` of the right
    block, over their 2048 columns. -/
theorem mm2048_apply (a : FVec Ideal S512x2048 .bf16) (w : FVec Ideal S2048x2048 .bf16) (p : Fin 512) (q : Fin 2048) :
    matmul dot_S512x2048_S2048x2048_S512x2048_1_1_0_0_n_n none a w (constant (F := Ideal) S512x2048 .f32 0x00000000#32) (ix2 p q)
      = ∑ d : Fin 2048, a (ix2 p d) * w (ix2 q d) := by
  simp only [matmul]
  rw [Ideal.matmul_constant_zero_apply, ← Equiv.sum_comp (contrEquiv1 dot_S512x2048_S2048x2048_S512x2048_1_1_0_0_n_n 2048 rfl rfl).symm]
  refine Finset.sum_congr rfl fun d _ => ?_
  have hd := contrEquiv1_symm_val dot_S512x2048_S2048x2048_S512x2048_1_1_0_0_n_n 2048 rfl rfl d
  have el : dot_S512x2048_S2048x2048_S512x2048_1_1_0_0_n_n.lhsIdx (ix2 p q) ((contrEquiv1 dot_S512x2048_S2048x2048_S512x2048_1_1_0_0_n_n 2048 rfl rfl).symm d) = ix2 p d := funext fun c => Fin.ext (by
    match c with
    | ⟨0, _⟩ => exact mm2048_lhs_0 _ _
    | ⟨1, _⟩ => exact (mm2048_lhs_1 _ _).trans hd)
  have er : dot_S512x2048_S2048x2048_S512x2048_1_1_0_0_n_n.rhsIdx (ix2 p q) ((contrEquiv1 dot_S512x2048_S2048x2048_S512x2048_1_1_0_0_n_n 2048 rfl rfl).symm d) = ix2 q d := funext fun c => Fin.ext (by
    match c with
    | ⟨0, _⟩ => exact mm2048_rhs_0 _ _
    | ⟨1, _⟩ => exact (mm2048_rhs_1 _ _).trans hd)
  rw [el, er]

/-! ### The dot record of the 1024-term block product: both operands contract their axis 1 -/

theorem mm1024_lhs_0 (j : S512x2048.Idx) (k : dot_S512x1024_S2048x1024_S512x2048_1_1_0_0_n_n.contr.Idx) :
    (dot_S512x1024_S2048x1024_S512x2048_1_1_0_0_n_n.lhsIdx j k 0).val = (j 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem mm1024_lhs_1 (j : S512x2048.Idx) (k : dot_S512x1024_S2048x1024_S512x2048_1_1_0_0_n_n.contr.Idx) :
    (dot_S512x1024_S2048x1024_S512x2048_1_1_0_0_n_n.lhsIdx j k 1).val = (k ⟨0, by decide⟩).val :=
  dot_S512x1024_S2048x1024_S512x2048_1_1_0_0_n_n.lhsIdx_val_of_single rfl j k
theorem mm1024_rhs_0 (j : S512x2048.Idx) (k : dot_S512x1024_S2048x1024_S512x2048_1_1_0_0_n_n.contr.Idx) :
    (dot_S512x1024_S2048x1024_S512x2048_1_1_0_0_n_n.rhsIdx j k 0).val = (j 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem mm1024_rhs_1 (j : S512x2048.Idx) (k : dot_S512x1024_S2048x1024_S512x2048_1_1_0_0_n_n.contr.Idx) :
    (dot_S512x1024_S2048x1024_S512x2048_1_1_0_0_n_n.rhsIdx j k 1).val = (k ⟨0, by decide⟩).val :=
  dot_S512x1024_S2048x1024_S512x2048_1_1_0_0_n_n.rhsIdx_val_of_single rfl j k

/-- The block product into the zero accumulator, at `(p, q)`: row `p` of the left block against row `q` of the right
    block, over their 1024 columns. -/
theorem mm1024_apply (a : FVec Ideal S512x1024 .bf16) (w : FVec Ideal S2048x1024 .bf16) (p : Fin 512) (q : Fin 2048) :
    matmul dot_S512x1024_S2048x1024_S512x2048_1_1_0_0_n_n none a w (constant (F := Ideal) S512x2048 .f32 0x00000000#32) (ix2 p q)
      = ∑ d : Fin 1024, a (ix2 p d) * w (ix2 q d) := by
  simp only [matmul]
  rw [Ideal.matmul_constant_zero_apply, ← Equiv.sum_comp (contrEquiv1 dot_S512x1024_S2048x1024_S512x2048_1_1_0_0_n_n 1024 rfl rfl).symm]
  refine Finset.sum_congr rfl fun d _ => ?_
  have hd := contrEquiv1_symm_val dot_S512x1024_S2048x1024_S512x2048_1_1_0_0_n_n 1024 rfl rfl d
  have el : dot_S512x1024_S2048x1024_S512x2048_1_1_0_0_n_n.lhsIdx (ix2 p q) ((contrEquiv1 dot_S512x1024_S2048x1024_S512x2048_1_1_0_0_n_n 1024 rfl rfl).symm d) = ix2 p d := funext fun c => Fin.ext (by
    match c with
    | ⟨0, _⟩ => exact mm1024_lhs_0 _ _
    | ⟨1, _⟩ => exact (mm1024_lhs_1 _ _).trans hd)
  have er : dot_S512x1024_S2048x1024_S512x2048_1_1_0_0_n_n.rhsIdx (ix2 p q) ((contrEquiv1 dot_S512x1024_S2048x1024_S512x2048_1_1_0_0_n_n 1024 rfl rfl).symm d) = ix2 q d := funext fun c => Fin.ext (by
    match c with
    | ⟨0, _⟩ => exact mm1024_rhs_0 _ _
    | ⟨1, _⟩ => exact (mm1024_rhs_1 _ _).trans hd)
  rw [el, er]

/-! ## The steps and the activation -/

/-- One step of the output total at `(p, q)`: the total there plus row `p` of the activation block against row `q` of
    the weight block. -/
theorem down_step (x0 : Vec Ideal S512x2048 .bf16) (x1 : Vec Ideal S2048x2048 .bf16) (xs : Vec Ideal S512x2048 .f32)
    (p : Fin 512) (q : Fin 2048) :
    k1_pay2 x0 x1 xs (ix2 p q) = xs (ix2 p q) + ∑ d : Fin 2048, x0 (ix2 p d) * x1 (ix2 q d) := by
  unfold k1_pay2
  simp only [shapeCast_self]
  rw [addf_apply, mm2048_apply]

/-- One step of the gate total at `(p, q)`: the total there plus row `p` of the input block against row `q` of the
    first weight block. -/
theorem gate_step (x0 : Vec Ideal S512x1024 .bf16) (x1 : Vec Ideal S2048x1024 .bf16) (xs : Vec Ideal S512x2048 .f32)
    (p : Fin 512) (q : Fin 2048) :
    k0_pay4 x0 x1 xs (ix2 p q) = xs (ix2 p q) + ∑ d : Fin 1024, x0 (ix2 p d) * x1 (ix2 q d) := by
  unfold k0_pay4 k0_pay3
  simp only [shapeCast_self]
  rw [addf_apply, mm1024_apply]

/-- One step of the value total at `(p, q)`: the same against the second weight block. -/
theorem up_step (x0 : Vec Ideal S512x1024 .bf16) (x2 : Vec Ideal S2048x1024 .bf16) (xs : Vec Ideal S512x2048 .f32)
    (p : Fin 512) (q : Fin 2048) :
    k0_pay5 x0 x2 xs (ix2 p q) = xs (ix2 p q) + ∑ d : Fin 1024, x0 (ix2 p d) * x2 (ix2 q d) := by
  unfold k0_pay5 k0_pay3
  simp only [shapeCast_self]
  rw [addf_apply, mm1024_apply]

/-- The activation at `(p, q)`: `(g · σ(g)) · u` of the two totals there. -/
theorem act_apply (g u : Vec Ideal S512x2048 .f32) (p : Fin 512) (q : Fin 2048) :
    k0_pay6 g u (ix2 p q) = (g (ix2 p q) * Ideal.logistic (g (ix2 p q))) * u (ix2 p q) := by
  unfold k0_pay6
  rfl

end Cert.KernelIdeal.Pay

end
-- ==== Proof.LibBlockAccum.lean ====
/-
  A sum over `n · b` consecutive terms, accumulated one block of `b` terms at a time.

  For a commutative additive monoid, the sum of `a i` over `i < n · b` is the sum over the blocks `k < n` of the block
  sums `∑ d < b, a (b · k + d)` (`sum_blocks`: the index `i` is `b · k + d` for exactly one pair `(k, d)`). A running total
  `A` that starts as `0` plus the first block sum and then adds one block sum per step is, after step `k`, the sum of
  the first `k + 1` block sums (`accum_range`); after the last step, `n - 1`, it is the whole sum (`accum_eq_sum`, and
  `accum_eq_sum_of_blocks` with the block sums named). The two instances at the bottom are `n = 4, b = 1024` over
  `Fin 4096` and `n = 8, b = 2048` over `Fin 16384`.
-/
import Mathlib.Algebra.BigOperators.Fin
import Mathlib.Logic.Equiv.Fin.Basic

open scoped BigOperators

namespace Cert.BlockAccum

variable {β : Type*} [AddCommMonoid β]

/-- Term `d` of block `k` lies below `n · b`. -/
theorem blk_lt {n b k : ℕ} (hk : k < n) (d : Fin b) : b * k + d.val < n * b := by
  have hd := d.isLt
  calc b * k + d.val < b * k + b := Nat.add_lt_add_left hd _
    _ = b * (k + 1) := (Nat.mul_succ b k).symm
    _ ≤ b * n := Nat.mul_le_mul_left b hk
    _ = n * b := Nat.mul_comm b n

/-- A sum over `n · b` terms is the sum over the `n` blocks of the sums over each block's `b` terms. -/
theorem sum_blocks (n b : ℕ) (a : Fin (n * b) → β) :
    ∑ i : Fin (n * b), a i = ∑ k : Fin n, ∑ d : Fin b, a ⟨b * k.val + d.val, blk_lt k.isLt d⟩ := by
  rw [← Fintype.sum_prod_type', ← Equiv.sum_comp (finProdFinEquiv (m := n) (n := b)) a]
  refine Fintype.sum_congr _ _ fun p => ?_
  refine congrArg a (Fin.ext ?_)
  show p.2.val + b * p.1.val = b * p.1.val + p.2.val
  exact Nat.add_comm _ _

/-- A running total that starts as `0 + s 0` and adds `s (k + 1)` at step `k + 1` is, after step `k`, the sum of
    `s 0, …, s k`. -/
theorem accum_range {n : ℕ} (A s : ℕ → β) (h0 : A 0 = 0 + s 0)
    (hs : ∀ k, k + 1 < n → A (k + 1) = A k + s (k + 1)) :
    ∀ k, k < n → A k = ∑ j ∈ Finset.range (k + 1), s j := by
  intro k
  induction k with
  | zero => intro _; rw [h0, zero_add, Finset.sum_range_one]
  | succ k ih =>
    intro hk
    rw [hs k hk, ih (Nat.lt_of_succ_lt hk), Finset.sum_range_succ _ (k + 1)]

/-- … so after the last step, `n - 1`, it is the sum of all `n` of them. -/
theorem accum_last {n : ℕ} (hn : 0 < n) (A s : ℕ → β) (h0 : A 0 = 0 + s 0)
    (hs : ∀ k, k + 1 < n → A (k + 1) = A k + s (k + 1)) :
    A (n - 1) = ∑ k : Fin n, s k.val := by
  rw [accum_range A s h0 hs (n - 1) (Nat.sub_lt hn Nat.one_pos), Nat.sub_add_cancel hn, Finset.sum_range]

/-- BLOCK ACCUMULATION, the block sums named: if `s k` is the sum of block `k` of `a` for every `k < n`, and the running
    total `A` starts as `0 + s 0` and adds `s (k + 1)` at step `k + 1`, then after step `n - 1` it is the sum of all of
    `a`. -/
theorem accum_eq_sum_of_blocks {n b : ℕ} (hn : 0 < n) (a : Fin (n * b) → β) (A s : ℕ → β)
    (hblk : ∀ k (hk : k < n), s k = ∑ d : Fin b, a ⟨b * k + d.val, blk_lt hk d⟩)
    (h0 : A 0 = 0 + s 0) (hs : ∀ k, k + 1 < n → A (k + 1) = A k + s (k + 1)) :
    A (n - 1) = ∑ i : Fin (n * b), a i := by
  rw [accum_last hn A s h0 hs, sum_blocks]
  exact Fintype.sum_congr _ _ fun k => hblk k.val k.isLt

/-- BLOCK ACCUMULATION: a running total that starts as `0` plus the sum of block `0` of `a` and adds the sum of block
    `k + 1` at step `k + 1` is, after step `n - 1`, the sum of all of `a`. -/
theorem accum_eq_sum {n b : ℕ} (hn : 0 < n) (a : Fin (n * b) → β) (A : ℕ → β)
    (h0 : A 0 = 0 + ∑ d : Fin b, a ⟨b * 0 + d.val, blk_lt hn d⟩)
    (hs : ∀ k (hk : k + 1 < n), A (k + 1) = A k + ∑ d : Fin b, a ⟨b * (k + 1) + d.val, blk_lt hk d⟩) :
    A (n - 1) = ∑ i : Fin (n * b), a i := by
  refine accum_eq_sum_of_blocks hn a A
    (fun k => if hk : k < n then ∑ d : Fin b, a ⟨b * k + d.val, blk_lt hk d⟩ else 0)
    (fun k hk => dif_pos hk) ?_ ?_
  · beta_reduce; rw [dif_pos hn]; exact h0
  · intro k hk; beta_reduce; rw [dif_pos hk]; exact hs k hk

/-- Four blocks of 1024 terms: the total after step 3 is the sum of all 4096 terms. -/
theorem accum_eq_sum_4_1024 (a : Fin 4096 → β) (A : ℕ → β)
    (h0 : A 0 = 0 + ∑ d : Fin 1024, a ⟨1024 * 0 + d.val, by omega⟩)
    (hs : ∀ k (hk : k + 1 < 4), A (k + 1) = A k + ∑ d : Fin 1024, a ⟨1024 * (k + 1) + d.val, by omega⟩) :
    A 3 = ∑ i : Fin 4096, a i :=
  accum_eq_sum (n := 4) (b := 1024) (by decide) a A h0 hs

/-- Eight blocks of 2048 terms: the total after step 7 is the sum of all 16384 terms. -/
theorem accum_eq_sum_8_2048 (a : Fin 16384 → β) (A : ℕ → β)
    (h0 : A 0 = 0 + ∑ d : Fin 2048, a ⟨2048 * 0 + d.val, by omega⟩)
    (hs : ∀ k (hk : k + 1 < 8), A (k + 1) = A k + ∑ d : Fin 2048, a ⟨2048 * (k + 1) + d.val, by omega⟩) :
    A 7 = ∑ i : Fin 16384, a i :=
  accum_eq_sum (n := 8) (b := 2048) (by decide) a A h0 hs

end Cert.BlockAccum
-- ==== Proof.AccumSpec.lean ====
/-
  Running totals over column blocks are the inner products of `Cert.Mlp`.
-/
import proofs.«179451_j81046032875547_1_alg».proof.Proof.Spec
import proofs.«179451_j81046032875547_1_alg».proof.Proof.LibBlockAccum

noncomputable section

namespace Cert.Mlp.Accum

open Cert.Mlp Cert.BlockAccum Idealize.ShloMosaic Idealize.ShloMosaic.ValueIdx

/-- A total accumulated over four blocks of 1024 columns is the inner product of row `r` of `X` with row `j` of `W`. -/
theorem dot4 (X : Rows.Idx → EReal) (W : Wide.Idx → EReal) (r : Fin 4096) (j : Fin 16384) (A : ℕ → EReal)
    (h0 : A 0 = 0 + ∑ d : Fin 1024, X (ix2 r ⟨1024 * 0 + d.val, by omega⟩) * W (ix2 j ⟨1024 * 0 + d.val, by omega⟩))
    (hs : ∀ k (hk : k + 1 < 4), A (k + 1) = A k + ∑ d : Fin 1024,
      X (ix2 r ⟨1024 * (k + 1) + d.val, by omega⟩) * W (ix2 j ⟨1024 * (k + 1) + d.val, by omega⟩)) :
    A 3 = ∑ k : Fin 4096, X (ix2 r k) * W (ix2 j k) :=
  accum_eq_sum_4_1024 (fun i : Fin 4096 => X (ix2 r i) * W (ix2 j i)) A h0 hs

/-- The activation of the two totals accumulated over four blocks is the hidden activation. -/
theorem hiddenAt_of_accum (X : Rows.Idx → EReal) (Wg Wu : Wide.Idx → EReal) (r : Fin 4096) (j : Fin 16384)
    (G U : ℕ → EReal)
    (hG0 : G 0 = 0 + ∑ d : Fin 1024, X (ix2 r ⟨1024 * 0 + d.val, by omega⟩) * Wg (ix2 j ⟨1024 * 0 + d.val, by omega⟩))
    (hGs : ∀ k (hk : k + 1 < 4), G (k + 1) = G k + ∑ d : Fin 1024,
      X (ix2 r ⟨1024 * (k + 1) + d.val, by omega⟩) * Wg (ix2 j ⟨1024 * (k + 1) + d.val, by omega⟩))
    (hU0 : U 0 = 0 + ∑ d : Fin 1024, X (ix2 r ⟨1024 * 0 + d.val, by omega⟩) * Wu (ix2 j ⟨1024 * 0 + d.val, by omega⟩))
    (hUs : ∀ k (hk : k + 1 < 4), U (k + 1) = U k + ∑ d : Fin 1024,
      X (ix2 r ⟨1024 * (k + 1) + d.val, by omega⟩) * Wu (ix2 j ⟨1024 * (k + 1) + d.val, by omega⟩)) :
    (G 3 * Ideal.logistic (G 3)) * U 3 = hiddenAt X Wg Wu r j := by
  rw [dot4 X Wg r j G hG0 hGs, dot4 X Wu r j U hU0 hUs]
  rfl

/-- A total accumulated over eight blocks of 2048 columns is the output at `(r, o)`. -/
theorem outAt_of_accum (H Wd : Tall.Idx → EReal) (r o : Fin 4096) (A : ℕ → EReal)
    (h0 : A 0 = 0 + ∑ d : Fin 2048, H (ix2 r ⟨2048 * 0 + d.val, by omega⟩) * Wd (ix2 o ⟨2048 * 0 + d.val, by omega⟩))
    (hs : ∀ k (hk : k + 1 < 8), A (k + 1) = A k + ∑ d : Fin 2048,
      H (ix2 r ⟨2048 * (k + 1) + d.val, by omega⟩) * Wd (ix2 o ⟨2048 * (k + 1) + d.val, by omega⟩)) :
    A 7 = outAt H Wd r o :=
  accum_eq_sum_8_2048 (fun i : Fin 16384 => H (ix2 r i) * Wd (ix2 o i)) A h0 hs

end Cert.Mlp.Accum

end
-- ==== Proof.Ideal.DownValue.lean ====
/-
  What the second kernel region (the output projection) leaves in its result array, on the extended reals: the
  output matrix of `Cert.Mlp` of the two arrays it reads.

  The grid's points are `t = 16 · i + 8 · j + k` with `i < 8`, `j < 2`, `k < 8`. At point `t` the block of
  activations is rows `512 · i + p` and columns `2048 · k + d` of the activation matrix, the block of weights is rows
  `2048 · j + q` and the same columns of the weight matrix, and the output block is rows `512 · i + p` and columns
  `2048 · j + q` of the result. The running total at `(p, q)` starts at `k = 0` as zero plus the inner product of the
  two rows over the first 2048 columns and adds the next 2048 columns at every later `k`; at `k = 7` it is the inner
  product over all 16384 columns, which is the output at `(512 · i + p, 2048 · j + q)`. The output blocks written back
  at `k = 7`, one for every `(i, j)`, cover the result array.
-/
import proofs.«179451_j81046032875547_1_alg».proof.Proof.Ideal.DownRegion
import proofs.«179451_j81046032875547_1_alg».proof.Proof.Ideal.Payloads
import proofs.«179451_j81046032875547_1_alg».proof.Proof.Spec
import proofs.«179451_j81046032875547_1_alg».proof.Proof.LibBlockAccum
import proofs.«179451_j81046032875547_1_alg».proof.Proof.AccumSpec
import Idealize.ShloMosaic.Lib.Pipeline.Value

set_option maxRecDepth 16384

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The grid of the second region -/

theorem lt1 (t : Fin cfg1.N) : t.val < 128 := lt_of_lt_of_eq t.isLt N_1

/-- The block indices at point `t = 16 · i + 8 · j + k`: activations `(i, k)`, weights `(j, k)`, output `(i, j)`. -/
theorem idx1 : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

/-- Row `p` of the blocks at point `t`, in the arrays. -/
def rowAt (t : Fin cfg1.N) (p : Fin 512) : Fin 4096 := ⟨512 * (t.val / 16) + p.val, by have := lt1 t; omega⟩
/-- Column `d` of the input blocks at point `t`, in the arrays. -/
def hidAt (t : Fin cfg1.N) (d : Fin 2048) : Fin 16384 := ⟨2048 * (t.val % 8) + d.val, by omega⟩
/-- Row `q` of the weight block at point `t`, in the weight matrix: column `q` of the output block, in the result. -/
def colAt (t : Fin cfg1.N) (q : Fin 2048) : Fin 4096 := ⟨2048 * (t.val / 8 % 2) + q.val, by omega⟩

/-! ## The blocks read -/

/-- The activations the region reads, as a matrix of extended reals. -/
abbrev actM (c : Dev nD) : Cert.Mlp.Tall.Idx → EReal := V c main_v38
/-- The weights the region reads, as a matrix of extended reals. -/
abbrev wgtM (c : Dev nD) : Cert.Mlp.Tall.Idx → EReal := V c main_v37

/-- The block of activations at point `t`, at `(p, d)`. -/
theorem iblk1_0_apply (c : Dev nD) (t : Fin cfg1.N) (p : Fin 512) (d : Fin 2048) :
    iblk1 V c 0 t (ix2 p d) = actM V c (ix2 (rowAt t p) (hidAt t d)) := by
  obtain ⟨e0, e1, -⟩ := idx1 t
  show V c main_v38 (((cfg1.win 0).blk t).view.emb (ix2 p d)) = _
  refine congrArg (V c main_v38) (funext fun a => Fin.ext ?_)
  match a with
  | ⟨0, _⟩ => show win1_0.index t (0 : Fin 2) * 512 + 1 * p.val = 512 * (t.val / 16) + p.val; rw [e0]; omega
  | ⟨1, _⟩ => show win1_0.index t (1 : Fin 2) * 2048 + 1 * d.val = 2048 * (t.val % 8) + d.val; rw [e1]; omega

/-- The block of weights at point `t`, at `(q, d)`. -/
theorem iblk1_1_apply (c : Dev nD) (t : Fin cfg1.N) (q : Fin 2048) (d : Fin 2048) :
    iblk1 V c 1 t (ix2 q d) = wgtM V c (ix2 (colAt t q) (hidAt t d)) := by
  obtain ⟨-, -, e2, e3, -⟩ := idx1 t
  show V c main_v37 (((cfg1.win 1).blk t).view.emb (ix2 q d)) = _
  refine congrArg (V c main_v37) (funext fun a => Fin.ext ?_)
  match a with
  | ⟨0, _⟩ => show win1_1.index t (0 : Fin 2) * 2048 + 1 * q.val = 2048 * (t.val / 8 % 2) + q.val; rw [e2]; omega
  | ⟨1, _⟩ => show win1_1.index t (1 : Fin 2) * 2048 + 1 * d.val = 2048 * (t.val % 8) + d.val; rw [e3]; omega

/-! ## The running total -/

/-- At `k = 0` the total at `(p, q)` is zero plus the inner product of the two rows over the point's 2048 columns. -/
theorem acc_first (c : Dev nD) (s : Fin cfg1.N) (h0 : s.val % 8 = 0) (p : Fin 512) (q : Fin 2048) :
    accAt1 V c s.val s.isLt (ix2 p q)
      = 0 + ∑ d : Fin 2048, actM V c (ix2 (rowAt s p) (hidAt s d)) * wgtM V c (ix2 (colAt s q) (hidAt s d)) := by
  rw [accAt1_first V c s h0, down_step, pay1_zero]
  refine congrArg (0 + ·) (Finset.sum_congr rfl fun d _ => ?_)
  rw [iblk1_0_apply, iblk1_1_apply]

/-- At a later `k` it is the total of the point before plus that inner product. -/
theorem acc_next (c : Dev nD) (s : Fin cfg1.N) (h0 : ¬s.val % 8 = 0) (p : Fin 512) (q : Fin 2048) :
    accAt1 V c s.val s.isLt (ix2 p q)
      = accAt1 V c (s.val - 1) (Nat.lt_of_le_of_lt (Nat.sub_le _ _) s.isLt) (ix2 p q)
        + ∑ d : Fin 2048, actM V c (ix2 (rowAt s p) (hidAt s d)) * wgtM V c (ix2 (colAt s q) (hidAt s d)) := by
  rw [accAt1_next V c s h0, down_step]
  refine congrArg (_ + ·) (Finset.sum_congr rfl fun d _ => ?_)
  rw [iblk1_0_apply, iblk1_1_apply]

theorem accAt1_congr (c : Dev nD) {n n' : ℕ} (e : n = n') (h : n < cfg1.N) (h' : n' < cfg1.N) :
    accAt1 V c n h = accAt1 V c n' h' := by subst e; rfl

/-- At `k = 7` the total at `(p, q)` is the output at the block's place in the result: the eight points of the tile
    have the same rows of both matrices and the eight consecutive slices of 2048 columns. -/
theorem acc_last (c : Dev nD) (t : Fin cfg1.N) (h7 : t.val % 8 = 7) (p : Fin 512) (q : Fin 2048) :
    accAt1 V c t.val t.isLt (ix2 p q) = Cert.Mlp.outAt (actM V c) (wgtM V c) (rowAt t p) (colAt t q) := by
  have hN := lt1 t
  have hlt : ∀ k, k < 8 → t.val - 7 + k < cfg1.N := fun k hk =>
    lt_of_lt_of_eq (show t.val - 7 + k < 128 by omega) N_1.symm
  have er : ∀ k (hk : k < 8), rowAt ⟨t.val - 7 + k, hlt k hk⟩ p = rowAt t p := fun k hk =>
    Fin.ext (by show 512 * ((t.val - 7 + k) / 16) + p.val = 512 * (t.val / 16) + p.val; omega)
  have ec : ∀ k (hk : k < 8), colAt ⟨t.val - 7 + k, hlt k hk⟩ q = colAt t q := fun k hk =>
    Fin.ext (by show 2048 * ((t.val - 7 + k) / 8 % 2) + q.val = 2048 * (t.val / 8 % 2) + q.val; omega)
  have eh : ∀ k (hk : k < 8) (d : Fin 2048), hidAt ⟨t.val - 7 + k, hlt k hk⟩ d = ⟨2048 * k + d.val, by omega⟩ := fun k hk d =>
    Fin.ext (by show 2048 * ((t.val - 7 + k) % 8) + d.val = 2048 * k + d.val; omega)
  refine Eq.trans ?_ (Cert.Mlp.Accum.outAt_of_accum (actM V c) (wgtM V c) (rowAt t p) (colAt t q)
    (fun k => if h : k < 8 then accAt1 V c (t.val - 7 + k) (hlt k h) (ix2 p q) else 0) ?_ ?_)
  · rw [dif_pos (show 7 < 8 by omega)]
    exact congrFun (accAt1_congr V c (by omega) _ _) _
  · rw [dif_pos (show 0 < 8 by omega)]
    refine (acc_first V c ⟨t.val - 7 + 0, hlt 0 (by omega)⟩ (by show (t.val - 7 + 0) % 8 = 0; omega) p q).trans ?_
    refine congrArg (0 + ·) (Finset.sum_congr rfl fun d _ => ?_)
    rw [er 0 (by omega), ec 0 (by omega), eh 0 (by omega) d]
  · intro k hk
    rw [dif_pos (show k + 1 < 8 from hk), dif_pos (show k < 8 by omega)]
    refine (acc_next V c ⟨t.val - 7 + (k + 1), hlt (k + 1) hk⟩ (by show ¬(t.val - 7 + (k + 1)) % 8 = 0; omega) p q).trans ?_
    refine congrArg₂ (· + ·) ?_ (Finset.sum_congr rfl fun d _ => ?_)
    · exact congrFun (accAt1_congr V c (by show t.val - 7 + (k + 1) - 1 = t.val - 7 + k; omega) _ _) _
    · rw [er (k + 1) hk, ec (k + 1) hk, eh (k + 1) hk d]

/-! ## What is written back, and where -/

/-- An index of the result is in point `t`'s output block iff each coordinate is in the block's range. -/
theorem mem_blk1_2 (t : Fin cfg1.N) (i : S4096x4096.Idx) :
    i ∈ ((cfg1.win 2).blk t).view.set ↔ ∀ a : Fin 2, win1_2.index t a * S512x2048.size a ≤ (i a).val
      ∧ (i a).val < win1_2.index t a * S512x2048.size a + S512x2048.size a := by
  show i ∈ ((View.whole main_v39).slice (win1_2.rect t)).set ↔ _
  rw [View.set_slice_whole, Rect.mem_set_unit]
  exact Iff.rfl

set_option maxRecDepth 65536 in
/-- The block written back at a point with `k = 7` is that point's block of the output matrix. -/
theorem flushed1_2_eq (c : Dev nD) (t : Fin cfg1.N) (hf : (cfg1.win 2).flush t = true) :
    (dat1 V c).flushed 2 t = ((cfg1.win 2).blk t).view.read (Elt Ideal) (Cert.Mlp.out (actM V c) (wgtM V c)) := by
  have h7 : t.val % 8 = 7 := (flush1_2 t).mp hf
  obtain ⟨-, -, -, -, e4, e5⟩ := idx1 t
  show (cfg1.win 2).cut (grid1.coords t) ((dat1 V c).after 2 t) = _
  rw [after1_2]
  funext y
  obtain ⟨p, q, rfl⟩ : ∃ (p : Fin 512) (q : Fin 2048), y = ix2 p q := ⟨y 0, y 1, eq_ix2 y⟩
  show accAt1 V c t.val t.isLt (ix2 p q)
    = Cert.Mlp.out (actM V c) (wgtM V c) (((cfg1.win 2).blk t).view.emb (ix2 p q))
  rw [acc_last V c t h7 p q]
  show _ = Cert.Mlp.outAt (actM V c) (wgtM V c) ((((cfg1.win 2).blk t).view.emb (ix2 p q)) 0)
    ((((cfg1.win 2).blk t).view.emb (ix2 p q)) 1)
  congr 1
  · exact Fin.ext (by show 512 * (t.val / 16) + p.val = win1_2.index t (0 : Fin 2) * 512 + 1 * p.val; rw [e4]; omega)
  · exact Fin.ext (by show 2048 * (t.val / 8 % 2) + q.val = win1_2.index t (1 : Fin 2) * 2048 + 1 * q.val; rw [e5]; omega)

/-- Every index `(r, o)` of the result is in the output block of the point `16 · (r / 512) + 8 · (o / 2048) + 7`, which is
    written back. -/
theorem cover1_2 (i : S4096x4096.Idx) :
    ∃ t : Fin cfg1.N, (cfg1.win 2).flush t = true ∧ i ∈ ((cfg1.win 2).blk t).view.set := by
  have h0 : (i 0).val < 4096 := (i 0).isLt
  have h1 : (i 1).val < 4096 := (i 1).isLt
  have hlt : 16 * ((i 0).val / 512) + 8 * ((i 1).val / 2048) + 7 < cfg1.N :=
    lt_of_lt_of_eq (show 16 * ((i 0).val / 512) + 8 * ((i 1).val / 2048) + 7 < 128 by omega) N_1.symm
  obtain ⟨-, -, -, -, e4, e5⟩ := idx1 ⟨16 * ((i 0).val / 512) + 8 * ((i 1).val / 2048) + 7, hlt⟩
  refine ⟨⟨16 * ((i 0).val / 512) + 8 * ((i 1).val / 2048) + 7, hlt⟩,
    (flush1_2 _).mpr (by show (16 * ((i 0).val / 512) + 8 * ((i 1).val / 2048) + 7) % 8 = 7; omega), ?_⟩
  rw [mem_blk1_2]
  intro a
  match a with
  | ⟨0, _⟩ =>
    show win1_2.index ⟨16 * ((i 0).val / 512) + 8 * ((i 1).val / 2048) + 7, hlt⟩ (0 : Fin 2) * 512 ≤ (i 0).val
      ∧ (i 0).val < win1_2.index ⟨16 * ((i 0).val / 512) + 8 * ((i 1).val / 2048) + 7, hlt⟩ (0 : Fin 2) * 512 + 512
    rw [e4]
    show (16 * ((i 0).val / 512) + 8 * ((i 1).val / 2048) + 7) / 16 * 512 ≤ (i 0).val
      ∧ (i 0).val < (16 * ((i 0).val / 512) + 8 * ((i 1).val / 2048) + 7) / 16 * 512 + 512
    omega
  | ⟨1, _⟩ =>
    show win1_2.index ⟨16 * ((i 0).val / 512) + 8 * ((i 1).val / 2048) + 7, hlt⟩ (1 : Fin 2) * 2048 ≤ (i 1).val
      ∧ (i 1).val < win1_2.index ⟨16 * ((i 0).val / 512) + 8 * ((i 1).val / 2048) + 7, hlt⟩ (1 : Fin 2) * 2048 + 2048
    rw [e5]
    show (16 * ((i 0).val / 512) + 8 * ((i 1).val / 2048) + 7) / 8 % 2 * 2048 ≤ (i 1).val
      ∧ (i 1).val < (16 * ((i 0).val / 512) + 8 * ((i 1).val / 2048) + 7) / 8 % 2 * 2048 + 2048
    omega

/-! ## The result array -/

/-- AFTER THE REGION the result array holds the output matrix of the activations and the weights the region was
    entered with. -/
theorem down_value (c : Dev nD) :
    (dat1 V c).arrAt 2 cfg1.N = Cert.Mlp.out (actM V c) (wgtM V c) :=
  (dat1 V c).arrAt_eq_of_cover 2 (Cert.Mlp.out (actM V c) (wgtM V c)) (flushed1_2_eq V c) cover1_2

end Cert.KernelIdeal.Val

end
-- ==== Proof.Ideal.GluValue.lean ====
/-
  What the first kernel region (the gated hidden layer) leaves in its result array, on the extended reals: the
  matrix of hidden activations of `Cert.Mlp` of the three arrays it reads.

  The grid's points are `t = 32 · i + 4 · j + k` with `i < 8`, `j < 8`, `k < 4`. At point `t` the input block is rows
  `512 · i + p` and columns `1024 · k + d` of the input matrix, the two weight blocks are rows `2048 · j + q` and the
  same columns of the two weight matrices, and the output block is rows `512 · i + p` and columns `2048 · j + q` of
  the result. The two running totals at `(p, q)` start at `k = 0` as zero plus the inner products of the input row
  with the two weight rows over the first 1024 columns and add the next 1024 columns at every later `k`; at `k = 3`
  they are the inner products over all 4096 columns, `g` and `u`, and the block stored there holds `(g · σ(g)) · u`,
  the hidden activation of row `512 · i + p` at unit `2048 · j + q`. The output blocks written back at `k = 3`, one
  for every `(i, j)`, cover the result array.
-/
import proofs.«179451_j81046032875547_1_alg».proof.Proof.Ideal.GluRegion
import proofs.«179451_j81046032875547_1_alg».proof.Proof.Ideal.Payloads
import proofs.«179451_j81046032875547_1_alg».proof.Proof.Spec
import proofs.«179451_j81046032875547_1_alg».proof.Proof.LibBlockAccum
import proofs.«179451_j81046032875547_1_alg».proof.Proof.AccumSpec
import Idealize.ShloMosaic.Lib.Pipeline.Value

set_option maxRecDepth 16384

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The grid of the first region -/

theorem lt0 (t : Fin cfg0.N) : t.val < 256 := lt_of_lt_of_eq t.isLt N_0

/-- The block indices at point `t = 32 · i + 4 · j + k`: input `(i, k)`, both weights `(j, k)`, output `(i, j)`. -/
theorem idx0 : ∀ t : Fin cfg0.N, win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = t.val % 4
    ∧ win0_3.index t (0 : Fin 2) = t.val / 32 ∧ win0_3.index t (1 : Fin 2) = t.val / 4 % 8 :=
  (by decide +kernel : ∀ t : Fin grid0.N, _)

/-- Row `p` of the input and output blocks at point `t`, in the arrays. -/
def rowAt0 (t : Fin cfg0.N) (p : Fin 512) : Fin 4096 := ⟨512 * (t.val / 32) + p.val, by have := lt0 t; omega⟩
/-- Column `d` of the input and weight blocks at point `t`, in the arrays. -/
def kAt0 (t : Fin cfg0.N) (d : Fin 1024) : Fin 4096 := ⟨1024 * (t.val % 4) + d.val, by omega⟩
/-- Row `q` of the weight blocks at point `t`, in the weight matrices: column `q` of the output block, in the result. -/
def unitAt0 (t : Fin cfg0.N) (q : Fin 2048) : Fin 16384 := ⟨2048 * (t.val / 4 % 8) + q.val, by omega⟩

/-! ## The blocks read -/

/-- The input the region reads, as a matrix of extended reals. -/
abbrev inM (c : Dev nD) : Cert.Mlp.Rows.Idx → EReal := V c main_v1
/-- The first weight matrix the region reads. -/
abbrev gateM (c : Dev nD) : Cert.Mlp.Wide.Idx → EReal := V c main_v13
/-- The second weight matrix the region reads. -/
abbrev upM (c : Dev nD) : Cert.Mlp.Wide.Idx → EReal := V c main_v25

/-- The input block at point `t`, at `(p, d)`. -/
theorem iblk0_0_apply (c : Dev nD) (t : Fin cfg0.N) (p : Fin 512) (d : Fin 1024) :
    iblk0 V c 0 t (ix2 p d) = inM V c (ix2 (rowAt0 t p) (kAt0 t d)) := by
  obtain ⟨e0, e1, -⟩ := idx0 t
  show V c main_v1 (((cfg0.win 0).blk t).view.emb (ix2 p d)) = _
  refine congrArg (V c main_v1) (funext fun a => Fin.ext ?_)
  match a with
  | ⟨0, _⟩ => show win0_0.index t (0 : Fin 2) * 512 + 1 * p.val = 512 * (t.val / 32) + p.val; rw [e0]; omega
  | ⟨1, _⟩ => show win0_0.index t (1 : Fin 2) * 1024 + 1 * d.val = 1024 * (t.val % 4) + d.val; rw [e1]; omega

/-- The first weight block at point `t`, at `(q, d)`. -/
theorem iblk0_1_apply (c : Dev nD) (t : Fin cfg0.N) (q : Fin 2048) (d : Fin 1024) :
    iblk0 V c 1 t (ix2 q d) = gateM V c (ix2 (unitAt0 t q) (kAt0 t d)) := by
  obtain ⟨-, -, e2, e3, -⟩ := idx0 t
  show V c main_v13 (((cfg0.win 1).blk t).view.emb (ix2 q d)) = _
  refine congrArg (V c main_v13) (funext fun a => Fin.ext ?_)
  match a with
  | ⟨0, _⟩ => show win0_1.index t (0 : Fin 2) * 2048 + 1 * q.val = 2048 * (t.val / 4 % 8) + q.val; rw [e2]; omega
  | ⟨1, _⟩ => show win0_1.index t (1 : Fin 2) * 1024 + 1 * d.val = 1024 * (t.val % 4) + d.val; rw [e3]; omega

/-- The second weight block at point `t`, at `(q, d)`. -/
theorem iblk0_2_apply (c : Dev nD) (t : Fin cfg0.N) (q : Fin 2048) (d : Fin 1024) :
    iblk0 V c 2 t (ix2 q d) = upM V c (ix2 (unitAt0 t q) (kAt0 t d)) := by
  obtain ⟨-, -, -, -, e4, e5, -⟩ := idx0 t
  show V c main_v25 (((cfg0.win 2).blk t).view.emb (ix2 q d)) = _
  refine congrArg (V c main_v25) (funext fun a => Fin.ext ?_)
  match a with
  | ⟨0, _⟩ => show win0_2.index t (0 : Fin 2) * 2048 + 1 * q.val = 2048 * (t.val / 4 % 8) + q.val; rw [e4]; omega
  | ⟨1, _⟩ => show win0_2.index t (1 : Fin 2) * 1024 + 1 * d.val = 1024 * (t.val % 4) + d.val; rw [e5]; omega

/-! ## The two running totals -/

/-- At `k = 0` the gate total at `(p, q)` is zero plus the inner product of the two rows over the point's 1024 columns. -/
theorem accG0_first' (c : Dev nD) (s : Fin cfg0.N) (h0 : s.val % 4 = 0) (p : Fin 512) (q : Fin 2048) :
    accG0 V c s.val s.isLt (ix2 p q)
      = 0 + ∑ d : Fin 1024, inM V c (ix2 (rowAt0 s p) (kAt0 s d)) * gateM V c (ix2 (unitAt0 s q) (kAt0 s d)) := by
  rw [accG0_first V c s h0, gate_step, gate_zero]
  refine congrArg (0 + ·) (Finset.sum_congr rfl fun d _ => ?_)
  rw [iblk0_0_apply, iblk0_1_apply]

/-- At a later `k` it is the total of the point before plus that inner product. -/
theorem accG0_next' (c : Dev nD) (s : Fin cfg0.N) (h0 : ¬s.val % 4 = 0) (p : Fin 512) (q : Fin 2048) :
    accG0 V c s.val s.isLt (ix2 p q)
      = accG0 V c (s.val - 1) (Nat.lt_of_le_of_lt (Nat.sub_le _ _) s.isLt) (ix2 p q)
        + ∑ d : Fin 1024, inM V c (ix2 (rowAt0 s p) (kAt0 s d)) * gateM V c (ix2 (unitAt0 s q) (kAt0 s d)) := by
  rw [accG0_next V c s h0, gate_step]
  refine congrArg (_ + ·) (Finset.sum_congr rfl fun d _ => ?_)
  rw [iblk0_0_apply, iblk0_1_apply]

theorem accG0_congr (c : Dev nD) {n n' : ℕ} (e : n = n') (h : n < cfg0.N) (h' : n' < cfg0.N) :
    accG0 V c n h = accG0 V c n' h' := by subst e; rfl

/-- At `k = 0` the value total at `(p, q)` is zero plus the inner product of the two rows over the point's 1024 columns. -/
theorem accU0_first' (c : Dev nD) (s : Fin cfg0.N) (h0 : s.val % 4 = 0) (p : Fin 512) (q : Fin 2048) :
    accU0 V c s.val s.isLt (ix2 p q)
      = 0 + ∑ d : Fin 1024, inM V c (ix2 (rowAt0 s p) (kAt0 s d)) * upM V c (ix2 (unitAt0 s q) (kAt0 s d)) := by
  rw [accU0_first V c s h0, up_step, up_zero]
  refine congrArg (0 + ·) (Finset.sum_congr rfl fun d _ => ?_)
  rw [iblk0_0_apply, iblk0_2_apply]

/-- At a later `k` it is the total of the point before plus that inner product. -/
theorem accU0_next' (c : Dev nD) (s : Fin cfg0.N) (h0 : ¬s.val % 4 = 0) (p : Fin 512) (q : Fin 2048) :
    accU0 V c s.val s.isLt (ix2 p q)
      = accU0 V c (s.val - 1) (Nat.lt_of_le_of_lt (Nat.sub_le _ _) s.isLt) (ix2 p q)
        + ∑ d : Fin 1024, inM V c (ix2 (rowAt0 s p) (kAt0 s d)) * upM V c (ix2 (unitAt0 s q) (kAt0 s d)) := by
  rw [accU0_next V c s h0, up_step]
  refine congrArg (_ + ·) (Finset.sum_congr rfl fun d _ => ?_)
  rw [iblk0_0_apply, iblk0_2_apply]

theorem accU0_congr (c : Dev nD) {n n' : ℕ} (e : n = n') (h : n < cfg0.N) (h' : n' < cfg0.N) :
    accU0 V c n h = accU0 V c n' h' := by subst e; rfl

/-- At `k = 3` the stored activation at `(p, q)` is the hidden activation at the block's place in the result: the four
    points of the tile have the same rows of the three matrices and the four consecutive slices of 1024 columns. -/
theorem act_last (c : Dev nD) (t : Fin cfg0.N) (h3 : t.val % 4 = 3) (p : Fin 512) (q : Fin 2048) :
    k0_pay6 (accG0 V c t.val t.isLt) (accU0 V c t.val t.isLt) (ix2 p q)
      = Cert.Mlp.hiddenAt (inM V c) (gateM V c) (upM V c) (rowAt0 t p) (unitAt0 t q) := by
  have hN := lt0 t
  have hlt : ∀ k, k < 4 → t.val - 3 + k < cfg0.N := fun k hk =>
    lt_of_lt_of_eq (show t.val - 3 + k < 256 by omega) N_0.symm
  have er : ∀ k (hk : k < 4), rowAt0 ⟨t.val - 3 + k, hlt k hk⟩ p = rowAt0 t p := fun k hk =>
    Fin.ext (by show 512 * ((t.val - 3 + k) / 32) + p.val = 512 * (t.val / 32) + p.val; omega)
  have ec : ∀ k (hk : k < 4), unitAt0 ⟨t.val - 3 + k, hlt k hk⟩ q = unitAt0 t q := fun k hk =>
    Fin.ext (by show 2048 * ((t.val - 3 + k) / 4 % 8) + q.val = 2048 * (t.val / 4 % 8) + q.val; omega)
  have eh : ∀ k (hk : k < 4) (d : Fin 1024), kAt0 ⟨t.val - 3 + k, hlt k hk⟩ d = ⟨1024 * k + d.val, by omega⟩ := fun k hk d =>
    Fin.ext (by show 1024 * ((t.val - 3 + k) % 4) + d.val = 1024 * k + d.val; omega)
  have key := Cert.Mlp.Accum.hiddenAt_of_accum (inM V c) (gateM V c) (upM V c) (rowAt0 t p) (unitAt0 t q)
    (fun k => if h : k < 4 then accG0 V c (t.val - 3 + k) (hlt k h) (ix2 p q) else 0)
    (fun k => if h : k < 4 then accU0 V c (t.val - 3 + k) (hlt k h) (ix2 p q) else 0) ?_ ?_ ?_ ?_
  · rw [act_apply, ← key, dif_pos (show 3 < 4 by omega), dif_pos (show 3 < 4 by omega)]
    rw [congrFun (accG0_congr V c (show t.val = t.val - 3 + 3 by omega) t.isLt (hlt 3 (by omega))) (ix2 p q),
      congrFun (accU0_congr V c (show t.val = t.val - 3 + 3 by omega) t.isLt (hlt 3 (by omega))) (ix2 p q)]
  · rw [dif_pos (show 0 < 4 by omega)]
    refine (accG0_first' V c ⟨t.val - 3 + 0, hlt 0 (by omega)⟩ (by show (t.val - 3 + 0) % 4 = 0; omega) p q).trans ?_
    refine congrArg (0 + ·) (Finset.sum_congr rfl fun d _ => ?_)
    rw [er 0 (by omega), ec 0 (by omega), eh 0 (by omega) d]
  · intro k hk
    rw [dif_pos (show k + 1 < 4 from hk), dif_pos (show k < 4 by omega)]
    refine (accG0_next' V c ⟨t.val - 3 + (k + 1), hlt (k + 1) hk⟩ (by show ¬(t.val - 3 + (k + 1)) % 4 = 0; omega) p q).trans ?_
    refine congrArg₂ (· + ·) ?_ (Finset.sum_congr rfl fun d _ => ?_)
    · exact congrFun (accG0_congr V c (by show t.val - 3 + (k + 1) - 1 = t.val - 3 + k; omega) _ _) _
    · rw [er (k + 1) hk, ec (k + 1) hk, eh (k + 1) hk d]
  · rw [dif_pos (show 0 < 4 by omega)]
    refine (accU0_first' V c ⟨t.val - 3 + 0, hlt 0 (by omega)⟩ (by show (t.val - 3 + 0) % 4 = 0; omega) p q).trans ?_
    refine congrArg (0 + ·) (Finset.sum_congr rfl fun d _ => ?_)
    rw [er 0 (by omega), ec 0 (by omega), eh 0 (by omega) d]
  · intro k hk
    rw [dif_pos (show k + 1 < 4 from hk), dif_pos (show k < 4 by omega)]
    refine (accU0_next' V c ⟨t.val - 3 + (k + 1), hlt (k + 1) hk⟩ (by show ¬(t.val - 3 + (k + 1)) % 4 = 0; omega) p q).trans ?_
    refine congrArg₂ (· + ·) ?_ (Finset.sum_congr rfl fun d _ => ?_)
    · exact congrFun (accU0_congr V c (by show t.val - 3 + (k + 1) - 1 = t.val - 3 + k; omega) _ _) _
    · rw [er (k + 1) hk, ec (k + 1) hk, eh (k + 1) hk d]

/-! ## What is written back, and where -/

/-- An index of the result is in point `t`'s output block iff each coordinate is in the block's range. -/
theorem mem_blk0_3 (t : Fin cfg0.N) (i : S4096x16384.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v38).slice (win0_3.rect t)).set ↔ _
  rw [View.set_slice_whole, Rect.mem_set_unit]
  exact Iff.rfl

set_option maxRecDepth 65536 in
/-- The block written back at a point with `k = 3` is that point's block of the matrix of hidden activations. -/
theorem flushed0_3_eq (c : Dev nD) (t : Fin cfg0.N) (hf : (cfg0.win 3).flush t = true) :
    (dat0 V c).flushed 3 t
      = ((cfg0.win 3).blk t).view.read (Elt Ideal) (Cert.Mlp.hidden (inM V c) (gateM V c) (upM V c)) := by
  have h3 : t.val % 4 = 3 := (flush0_3 t).mp hf
  obtain ⟨-, -, -, -, -, -, e6, e7⟩ := idx0 t
  show (cfg0.win 3).cut (grid0.coords t) ((dat0 V c).after 3 t) = _
  rw [after0_3]
  funext y
  obtain ⟨p, q, rfl⟩ : ∃ (p : Fin 512) (q : Fin 2048), y = ix2 p q := ⟨y 0, y 1, eq_ix2 y⟩
  show k0_pay6 (accG0 V c t.val t.isLt) (accU0 V c t.val t.isLt) (ix2 p q)
    = Cert.Mlp.hidden (inM V c) (gateM V c) (upM V c) (((cfg0.win 3).blk t).view.emb (ix2 p q))
  rw [act_last V c t h3 p q]
  show _ = Cert.Mlp.hiddenAt (inM V c) (gateM V c) (upM V c) ((((cfg0.win 3).blk t).view.emb (ix2 p q)) 0)
    ((((cfg0.win 3).blk t).view.emb (ix2 p q)) 1)
  congr 1
  · exact Fin.ext (by show 512 * (t.val / 32) + p.val = win0_3.index t (0 : Fin 2) * 512 + 1 * p.val; rw [e6]; omega)
  · exact Fin.ext (by show 2048 * (t.val / 4 % 8) + q.val = win0_3.index t (1 : Fin 2) * 2048 + 1 * q.val; rw [e7]; omega)

/-- Every index `(r, j)` of the result is in the output block of the point `32 · (r / 512) + 4 · (j / 2048) + 3`, which is
    written back. -/
theorem cover0_3 (i : S4096x16384.Idx) :
    ∃ t : Fin cfg0.N, (cfg0.win 3).flush t = true ∧ i ∈ ((cfg0.win 3).blk t).view.set := by
  have h0 : (i 0).val < 4096 := (i 0).isLt
  have h1 : (i 1).val < 16384 := (i 1).isLt
  have hlt : 32 * ((i 0).val / 512) + 4 * ((i 1).val / 2048) + 3 < cfg0.N :=
    lt_of_lt_of_eq (show 32 * ((i 0).val / 512) + 4 * ((i 1).val / 2048) + 3 < 256 by omega) N_0.symm
  obtain ⟨-, -, -, -, -, -, e6, e7⟩ := idx0 ⟨32 * ((i 0).val / 512) + 4 * ((i 1).val / 2048) + 3, hlt⟩
  refine ⟨⟨32 * ((i 0).val / 512) + 4 * ((i 1).val / 2048) + 3, hlt⟩,
    (flush0_3 _).mpr (by show (32 * ((i 0).val / 512) + 4 * ((i 1).val / 2048) + 3) % 4 = 3; omega), ?_⟩
  rw [mem_blk0_3]
  intro a
  match a with
  | ⟨0, _⟩ =>
    show win0_3.index ⟨32 * ((i 0).val / 512) + 4 * ((i 1).val / 2048) + 3, hlt⟩ (0 : Fin 2) * 512 ≤ (i 0).val
      ∧ (i 0).val < win0_3.index ⟨32 * ((i 0).val / 512) + 4 * ((i 1).val / 2048) + 3, hlt⟩ (0 : Fin 2) * 512 + 512
    rw [e6]
    show (32 * ((i 0).val / 512) + 4 * ((i 1).val / 2048) + 3) / 32 * 512 ≤ (i 0).val
      ∧ (i 0).val < (32 * ((i 0).val / 512) + 4 * ((i 1).val / 2048) + 3) / 32 * 512 + 512
    omega
  | ⟨1, _⟩ =>
    show win0_3.index ⟨32 * ((i 0).val / 512) + 4 * ((i 1).val / 2048) + 3, hlt⟩ (1 : Fin 2) * 2048 ≤ (i 1).val
      ∧ (i 1).val < win0_3.index ⟨32 * ((i 0).val / 512) + 4 * ((i 1).val / 2048) + 3, hlt⟩ (1 : Fin 2) * 2048 + 2048
    rw [e7]
    show (32 * ((i 0).val / 512) + 4 * ((i 1).val / 2048) + 3) / 4 % 8 * 2048 ≤ (i 1).val
      ∧ (i 1).val < (32 * ((i 0).val / 512) + 4 * ((i 1).val / 2048) + 3) / 4 % 8 * 2048 + 2048
    omega

/-! ## The result array -/

/-- AFTER THE REGION the result array holds the matrix of hidden activations of the input and the two weight matrices
    the region was entered with. -/
theorem glu_value (c : Dev nD) :
    (dat0 V c).arrAt 3 cfg0.N = Cert.Mlp.hidden (inM V c) (gateM V c) (upM V c) :=
  (dat0 V c).arrAt_eq_of_cover 3 (Cert.Mlp.hidden (inM V c) (gateM V c) (upM V c)) (flushed0_3_eq V c) cover0_3

end Cert.KernelIdeal.Val

end
-- ==== Proof.RefSide.lean ====
/-
  The reference program, read index by index, is the gated two-layer perceptron of `Cert.Mlp`.

  At an output index `(b, s, o)` the reference's last contraction is a sum over the hidden units `j` of the product
  of the gated activation at `(b, s, j)` with the third weight matrix at `(o, j)`. The gated activation is
  `(g · (1 / (1 + exp (-g)))) · u`, where `g` and `u` are the contractions of row `(b, s)` of the input with row `j`
  of the first two weight matrices; `1 / (1 + exp (-g))` is the logistic function of `g`. Row `(b, s)` of the batched
  input is row `2048 · b + s` of the flattened one, because `(2048 · b + s) / 2048 = b` and
  `(2048 · b + s) % 2048 = s` for `s < 2048`. The three weight matrices are whatever the reference computes for them:
  nothing here looks inside them.
-/
import proofs.«179451_j81046032875547_1_alg».proof.Proof.Spec
import proofs.«179451_j81046032875547_1_alg».proof.Proof.Gen.ReferenceIdeal.Read
import Idealize.ShloMosaic.Lib.IdealHost

noncomputable section

namespace Cert.Mlp.Ref

open Cert.ReferenceIdeal Cert.ReferenceIdeal.Read Idealize.ShloMosaic Idealize.ShloMosaic.ValueIdx

/-- Row `2048 · b + s` of the flattened input is entry `(b, s)` of the batched one. -/
theorem flat_rowOf (x : Batched.Idx → EReal) (b : Fin 2) (s : Fin 2048) (k : Fin 4096) :
    flat x (ix2 (rowOf b s) k) = x (ix3 b s k) := by
  unfold flat
  congr 1
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- The gate contraction at `(b, s, j)`: row `2048 · b + s` of the flattened input against row `j` of the first
    weight matrix. -/
theorem gate_apply (x0 : (⟨S2x2048x4096, .f32⟩ : BufTy).Contents (Elt Ideal))
    (x1 : (⟨S16384x4096, .f32⟩ : BufTy).Contents (Elt Ideal)) (x2 : (⟨S16384x1, .f32⟩ : BufTy).Contents (Elt Ideal))
    (b : Fin 2) (s : Fin 2048) (j : Fin 16384) :
    val_main_v11 (F := Ideal) x0 x1 x2 (ix3 b s j)
      = ∑ k : Fin 4096, flat x0 (ix2 (rowOf b s) k) * val_main_v10 (F := Ideal) x1 x2 (ix2 j k) := by
  rw [val_main_v11_apply]
  refine Finset.sum_congr rfl fun k _ => ?_
  have hl : lidx_main_v11 (ix3 b s j) k = ix3 b s k := by
    funext a; match a with | ⟨0, _⟩ => rfl | ⟨1, _⟩ => rfl | ⟨2, _⟩ => rfl
  have hr : ridx_main_v11 (ix3 b s j) k = ix2 j k := by
    funext a; match a with | ⟨0, _⟩ => rfl | ⟨1, _⟩ => rfl
  rw [hl, hr, flat_rowOf]

/-- The value contraction at `(b, s, j)`: the same row against row `j` of the second weight matrix. -/
theorem up_apply (x0 : (⟨S2x2048x4096, .f32⟩ : BufTy).Contents (Elt Ideal))
    (x3 : (⟨S16384x4096, .f32⟩ : BufTy).Contents (Elt Ideal)) (x4 : (⟨S16384x1, .f32⟩ : BufTy).Contents (Elt Ideal))
    (b : Fin 2) (s : Fin 2048) (j : Fin 16384) :
    val_main_v23 (F := Ideal) x0 x3 x4 (ix3 b s j)
      = ∑ k : Fin 4096, flat x0 (ix2 (rowOf b s) k) * val_main_v22 (F := Ideal) x3 x4 (ix2 j k) := by
  rw [val_main_v23_apply]
  refine Finset.sum_congr rfl fun k _ => ?_
  have hl : lidx_main_v23 (ix3 b s j) k = ix3 b s k := by
    funext a; match a with | ⟨0, _⟩ => rfl | ⟨1, _⟩ => rfl | ⟨2, _⟩ => rfl
  have hr : ridx_main_v23 (ix3 b s j) k = ix2 j k := by
    funext a; match a with | ⟨0, _⟩ => rfl | ⟨1, _⟩ => rfl
  rw [hl, hr, flat_rowOf]

/-- The reference's gated activation at `(b, s, j)` is the hidden activation of row `2048 · b + s` at unit `j`:
    `g · (1 / (1 + exp (-g)))` is `g` times the logistic function of `g`. -/
theorem hidden_apply (x0 : (⟨S2x2048x4096, .f32⟩ : BufTy).Contents (Elt Ideal))
    (x1 : (⟨S16384x4096, .f32⟩ : BufTy).Contents (Elt Ideal)) (x2 : (⟨S16384x1, .f32⟩ : BufTy).Contents (Elt Ideal))
    (x3 : (⟨S16384x4096, .f32⟩ : BufTy).Contents (Elt Ideal)) (x4 : (⟨S16384x1, .f32⟩ : BufTy).Contents (Elt Ideal))
    (b : Fin 2) (s : Fin 2048) (j : Fin 16384) :
    val_main_v25 (F := Ideal) x0 x1 x2 x3 x4 (ix3 b s j)
      = hiddenAt (flat x0) (val_main_v10 (F := Ideal) x1 x2) (val_main_v22 (F := Ideal) x3 x4) (rowOf b s) j := by
  rw [val_main_v25_apply, val_main_v24_apply, val_main_call0_v5_apply, val_main_call0_v4_apply,
    val_main_call0_cst_0_apply, val_main_call0_v3_apply, val_main_call0_v2_apply, val_main_call0_cst_apply,
    val_main_call0_v1_apply, val_main_call0_v0_apply, gate_apply, up_apply]
  have h1 : (FloatOps.ofBits .f32 0x3F800000#32 : Ideal .f32) = 1 := Ideal.ofBits_one_f32
  rw [h1]
  rfl

/-- THE REFERENCE'S RESULT is the perceptron's output on the flattened input, read back in the batched arrangement. -/
theorem ref_eq (x0 : (⟨S2x2048x4096, .f32⟩ : BufTy).Contents (Elt Ideal))
    (x1 : (⟨S16384x4096, .f32⟩ : BufTy).Contents (Elt Ideal)) (x2 : (⟨S16384x1, .f32⟩ : BufTy).Contents (Elt Ideal))
    (x3 : (⟨S16384x4096, .f32⟩ : BufTy).Contents (Elt Ideal)) (x4 : (⟨S16384x1, .f32⟩ : BufTy).Contents (Elt Ideal))
    (x5 : (⟨S4096x16384, .f32⟩ : BufTy).Contents (Elt Ideal)) (x6 : (⟨S4096x1, .f32⟩ : BufTy).Contents (Elt Ideal)) :
    val_main_v37 (F := Ideal) x0 x1 x2 x3 x4 x5 x6
      = unflat (out (hidden (flat x0) (val_main_v10 (F := Ideal) x1 x2) (val_main_v22 (F := Ideal) x3 x4))
          (val_main_v36 (F := Ideal) x5 x6)) := by
  funext i
  obtain ⟨b, s, o, rfl⟩ : ∃ (b : Fin 2) (s : Fin 2048) (o : Fin 4096), i = ix3 b s o :=
    ⟨i 0, i 1, i 2, eq_ix3 i⟩
  rw [val_main_v37_apply]
  show _ = ∑ k : Fin 16384,
      hiddenAt (flat x0) (val_main_v10 (F := Ideal) x1 x2) (val_main_v22 (F := Ideal) x3 x4) (rowOf b s) k
        * val_main_v36 (F := Ideal) x5 x6 (ix2 o k)
  refine Finset.sum_congr rfl fun k _ => ?_
  have hl : lidx_main_v37 (ix3 b s o) k = ix3 b s k := by
    funext a; match a with | ⟨0, _⟩ => rfl | ⟨1, _⟩ => rfl | ⟨2, _⟩ => rfl
  have hr : ridx_main_v37 (ix3 b s o) k = ix2 o k := by
    funext a; match a with | ⟨0, _⟩ => rfl | ⟨1, _⟩ => rfl
  rw [hl, hr, hidden_apply]

end Cert.Mlp.Ref

end
-- ==== Proof.Ideal.Value.lean ====
/-
  The result array of the kernel program on the extended reals, as the reference's function of the argument arrays.

  The last reshape reads the second region's output matrix in the batched arrangement; that matrix is the output
  projection of the first region's activations by the third weight matrix (every entry the whole inner product: the sums
  accumulated slice by slice are one sum); the activations are the gated hidden layer of the flattened input and the first
  two weight matrices; and what the host operations leave in those four arrays are the reference's own functions of the
  arguments. So the result is the reference's result term.
-/
import proofs.«179451_j81046032875547_1_alg».proof.Proof.Ideal.Run
import proofs.«179451_j81046032875547_1_alg».proof.Proof.Ideal.HostSide
import proofs.«179451_j81046032875547_1_alg».proof.Proof.Ideal.DownValue
import proofs.«179451_j81046032875547_1_alg».proof.Proof.Ideal.GluValue
import proofs.«179451_j81046032875547_1_alg».proof.Proof.RefSide

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The reference's result term of the kernel program's argument arrays. -/
abbrev refResult (c : Dev nD) : Cert.Mlp.Batched.Idx → EReal :=
  Cert.ReferenceIdeal.Read.val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The activations the second region reads are the gated hidden layer of the arguments. -/
theorem act_value (c : Dev nD) :
    (E2 (F := Ideal) m c main_v38 : Cert.Mlp.Tall.Idx → EReal)
      = Cert.Mlp.hidden (Cert.Mlp.flat (m ((c : Thread nD τ).loc main_arg0)))
          (Cert.ReferenceIdeal.Read.val_main_v10 (F := Ideal) (m ((c : Thread nD τ).loc main_arg1)) (m ((c : Thread nD τ).loc main_arg2)))
          (Cert.ReferenceIdeal.Read.val_main_v22 (F := Ideal) (m ((c : Thread nD τ).loc main_arg3)) (m ((c : Thread nD τ).loc main_arg4))) := by
  refine (W2_arr m c 3).trans ?_
  refine (Cert.KernelIdeal.Val.glu_value (E1 m) c).trans ?_
  have e1 : (E1 (F := Ideal) m c main_v1 : Cert.Mlp.Rows.Idx → EReal) = Cert.Mlp.flat (m ((c : Thread nD τ).loc main_arg0)) := HostSide.pre_rows m c
  have e2 : (E1 (F := Ideal) m c main_v13 : Cert.Mlp.Wide.Idx → EReal) = _ := HostSide.pre_gate m c
  have e3 : (E1 (F := Ideal) m c main_v25 : Cert.Mlp.Wide.Idx → EReal) = _ := HostSide.pre_up m c
  show Cert.Mlp.hidden (E1 m c main_v1) (E1 m c main_v13) (E1 m c main_v25) = _
  rw [e1, e2, e3]

/-- The weights the second region reads are the reference's third quantised matrix. -/
theorem wgt_value (c : Dev nD) :
    (E2 (F := Ideal) m c main_v37 : Cert.Mlp.Tall.Idx → EReal)
      = Cert.ReferenceIdeal.Read.val_main_v36 (F := Ideal) (m ((c : Thread nD τ).loc main_arg5)) (m ((c : Thread nD τ).loc main_arg6)) :=
  (W2_of_ne m c main_v37 (by decide)).trans (HostSide.pre_down m c)

/-- The program's result array holds the reference's result term. -/
theorem result_value (c : Dev nD) : (W4 (F := Ideal) m c (Proc.devRef .tc main_v40) : Cert.Mlp.Batched.Idx → EReal) = refResult m c := by
  unfold refResult
  rw [Cert.Mlp.Ref.ref_eq]
  refine (HostSide.post_reshape (W3 m c)).trans ?_
  refine congrArg Cert.Mlp.unflat ?_
  refine (W3_arr m c 2).trans ?_
  refine (Cert.KernelIdeal.Val.down_value (E2 m) c).trans ?_
  show Cert.Mlp.out (E2 m c main_v38) (E2 m c main_v37) = _
  rw [act_value m c, wgt_value m c]

/-- Every weakly fair execution ends with the result array at the reference's term and the arguments as launched. -/
theorem run_value : θ_run defs (onTc (τ := τ) (main (F := Ideal))) ⟨m, fun _ => 0, ρ⟩ (fun r => ∀ c : Dev nD,
      r.2.mem ((c.tc : Thread nD τ).loc main_v40) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v40 (by decide))).trans (result_value m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide))⟩)
    (run_all m ρ)

end Cert.KernelIdeal.Hand

end
-- ==== Proof.lean ====
/-
  The five claims. The kernel program is host operations that flatten the input and quantise three weight matrices, a
  first kernel region computing the gated hidden layer tile by tile — each tile's two inner products accumulated over four
  slices of the contracted axis —, a second region computing the output projection the same way over eight slices, and a
  reshape. Both kernel programs run to the end from any memory, leaving their arguments as launched (the word-level one and
  the one read on the extended reals are the same text, run the same way). On the extended reals the accumulated slices add
  up to the whole inner products, by associativity and commutativity of addition alone — no finiteness is used —, the
  kernel's logistic function is the reference's 1 / (1 + exp (−x)), and a change of float format is the identity, so the
  kernel program's result is the reference's term of the same arguments. The ideal pass rewrote nothing.
-/
import proofs.«179451_j81046032875547_1_alg».proof.Defs
import proofs.«179451_j81046032875547_1_alg».proof.Proof.Gen.Kernel
import proofs.«179451_j81046032875547_1_alg».proof.Proof.Gen.KernelIdeal
import proofs.«179451_j81046032875547_1_alg».proof.Proof.Gen.ReferenceIdeal
import proofs.«179451_j81046032875547_1_alg».proof.Proof.Gen.Pre_finite_inputs
import proofs.«179451_j81046032875547_1_alg».proof.Proof.Gen.ReferenceIdeal.Run
import proofs.«179451_j81046032875547_1_alg».proof.Proof.Gen.ReferenceIdeal.Read
import proofs.«179451_j81046032875547_1_alg».proof.Proof.Bits.Run
import proofs.«179451_j81046032875547_1_alg».proof.Proof.Ideal.Run
import proofs.«179451_j81046032875547_1_alg».proof.Proof.Ideal.Value

noncomputable section

namespace Cert.Proof

open Idealize.ShloMosaic Idealize.ShloMosaic.TcCoe Idealize.SL.Sem

theorem frame_p : Cert.frame_Kernel := fun m ρ _ => Cert.Kernel.Hand.frame_all m ρ

theorem frame_pi : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's result term of the (agreeing) arguments in their result arrays. -/
theorem algebraic : Cert.algebraic_KernelIdeal_ReferenceIdeal := by
  intro m ρ m' ρ' _ hagree
  refine ⟨fun c => Cert.KernelIdeal.Hand.refResult m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2]
  exact (Cert.ReferenceIdeal.Read.val_main_v37_eq _ _ _ _ _ _ _)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
